-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x768 : Shape := ⟨2, ![512, 768]⟩
abbrev S262144x768 : Shape := ⟨2, ![262144, 768]⟩
abbrev S128x768 : Shape := ⟨2, ![128, 768]⟩
abbrev S128 : Shape := ⟨1, ![128]⟩
abbrev S_ : Shape := ⟨0, ![]⟩

class Facts : Prop where
  bcast_S_S512x768 : S_.BroadcastsInDim S512x768 (![] : Fin 0 → Fin S512x768.rank)
  reducesTo_S512x768_S_d0_1 : S512x768.ReducesTo [0, 1] S_
  h_S_ : 0 < S_.numel
  bcast_S_S262144x768 : S_.BroadcastsInDim S262144x768 (![] : Fin 0 → Fin S262144x768.rank)
  reducesTo_S262144x768_S_d0_1 : S262144x768.ReducesTo [0, 1] S_
  bcast_S_S128x768 : S_.BroadcastsInDim S128x768 (![] : Fin 0 → Fin S128x768.rank)
  reducesTo_S128x768_S_d0_1 : S128x768.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x768 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x768 .f32 := Host.absf main_arg4
  let main_cst_6 : FVec F S_ .f32 := constant S_ .f32 0x7F800000#32
  let main_v20 : FVec F S128x768 .f32 := broadcastInDim S128x768 ![] bcast_S_S128x768 main_cst_6
  let main_v21 : IVec S128x768 1 := cmpf .olt main_v19 main_v20
  let main_c_7 : IVec S_ 1 := constantI S_ 1 1#1
  let main_v22 : IVec S_ 1 := (fun x v => Host.reduce IntOp.andi x v reducesTo_S128x768_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S512x768 .f32) (main_arg1 : FVec F S262144x768 .f32) (main_arg2 : FVec F S128x768 .f32) (main_arg3 : FVec F S128 .f32) (main_arg4 : FVec F S128x768 .f32) (main_arg5 : FVec F S128 .f32) : IVec S_ 1 :=
  let main_v0 : FVec F S512x768 .f32 := Host.absf main_arg0
  let main_cst : FVec F S_ .f32 := constant S_ .f32 0x7F800000#32
  let main_v1 : FVec F S512x768 .f32 := broadcastInDim S512x768 ![] bcast_S_S512x768 main_cst
  let main_v2 : IVec S512x768 1 := cmpf .olt main_v0 main_v1
  let main_c : IVec S_ 1 := constantI S_ 1 1#1
  let main_v3 : IVec S_ 1 := (fun x v => Host.reduce IntOp.andi x v reducesTo_S512x768_S_d0_1 h_S_) main_v2 main_c
  let main_v4 : FVec F S262144x768 .f32 := Host.absf main_arg1
  let main_cst_0 : FVec F S_ .f32 := constant S_ .f32 0x7F800000#32
  let main_v5 : FVec F S262144x768 .f32 := broadcastInDim S262144x768 ![] bcast_S_S262144x768 main_cst_0
  let main_v6 : IVec S262144x768 1 := cmpf .olt main_v4 main_v5
  let main_c_1 : IVec S_ 1 := constantI S_ 1 1#1
  let main_v7 : IVec S_ 1 := (fun x v => Host.reduce IntOp.andi x v reducesTo_S262144x768_S_d0_1 h_S_) main_v6 main_c_1
  let main_v8 : IVec S_ 1 := andi main_v3 main_v7
  let main_v9 : FVec F S128x768 .f32 := Host.absf main_arg2
  let main_cst_2 : FVec F S_ .f32 := constant S_ .f32 0x7F800000#32
  let main_v10 : FVec F S128x768 .f32 := broadcastInDim S128x768 ![] bcast_S_S128x768 main_cst_2
  let main_v11 : IVec S128x768 1 := cmpf .olt main_v9 main_v10
  let main_c_3 : IVec S_ 1 := constantI S_ 1 1#1
  let main_v12 : IVec S_ 1 := (fun x v => Host.reduce IntOp.andi x v reducesTo_S128x768_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S512x768 : Shape := ⟨2, ![512, 768]⟩
abbrev S262144x768 : Shape := ⟨2, ![262144, 768]⟩
abbrev S128x768 : Shape := ⟨2, ![128, 768]⟩
abbrev S128 : Shape := ⟨1, ![128]⟩
abbrev S768x128 : Shape := ⟨2, ![768, 128]⟩
abbrev S512x128 : Shape := ⟨2, ![512, 128]⟩
abbrev S1x128 : Shape := ⟨2, ![1, 128]⟩
abbrev S262144x512 : Shape := ⟨2, ![262144, 512]⟩
abbrev S1024x768 : Shape := ⟨2, ![1024, 768]⟩
abbrev S1024x512 : Shape := ⟨2, ![1024, 512]⟩
abbrev S1024x128 : Shape := ⟨2, ![1024, 128]⟩
abbrev S512 : Shape := ⟨1, ![512]⟩
abbrev S1x512 : Shape := ⟨2, ![1, 512]⟩
abbrev S1024 : Shape := ⟨1, ![1024]⟩
abbrev S1024x1 : Shape := ⟨2, ![1024, 1]⟩
abbrev S128x512 : Shape := ⟨2, ![128, 512]⟩

abbrev nBuf : Space → Nat
  | .hbm => 13
  | .vmem => 9
  | .smem => 0
  | _ => 0

abbrev bufTy : (tb : Table) → Fin (tcTables nBuf tb) → BufTy
  | .hbm, ⟨0, _⟩ => ⟨S512x768, .f32⟩
  | .hbm, ⟨1, _⟩ => ⟨S262144x768, .f32⟩
  | .hbm, ⟨2, _⟩ => ⟨S128x768, .f32⟩
  | .hbm, ⟨3, _⟩ => ⟨S128, .f32⟩
  | .hbm, ⟨4, _⟩ => ⟨S128x768, .f32⟩
  | .hbm, ⟨5, _⟩ => ⟨S128, .f32⟩
  | .hbm, ⟨6, _⟩ => ⟨S768x128, .f32⟩
  | .hbm, ⟨7, _⟩ => ⟨S512x128, .f32⟩
  | .hbm, ⟨8, _⟩ => ⟨S1x128, .f32⟩
  | .hbm, ⟨9, _⟩ => ⟨S512x128, .f32⟩
  | .hbm, ⟨10, _⟩ => ⟨S512x128, .f32⟩
  | .hbm, ⟨11, _⟩ => ⟨S262144x512, .f32⟩
  | .hbm, ⟨12, _⟩ => ⟨S262144x512, .f32⟩
  | .local _ .vmem, ⟨0, _⟩ => ⟨S512x128, .f32⟩
  | .local _ .vmem, ⟨1, _⟩ => ⟨S1024x768, .f32⟩
  | .local _ .vmem, ⟨2, _⟩ => ⟨S1024x768, .f32⟩
  | .local _ .vmem, ⟨3, _⟩ => ⟨S128x768, .f32⟩
  | .local _ .vmem, ⟨4, _⟩ => ⟨S128, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S128x768_S768x128_1_0 : S128x768.Transposes [1, 0] S768x128
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  inb_S1024x768_S1024x768_0_0 : ∀ a, (![0, 0] : Fin 2 → Nat) a + S1024x768.size a ≤ S1024x768.size a
  h_S1024x768 : 0 < S1024x768.numel
  bitsLt_bf16_f32 : FTy.bits .bf16 < FTy.bits .f32
  inb_S128x768_S128x768_0_0 : ∀ a, (![0, 0] : Fin 2 → Nat) a + S128x768.size a ≤ S128x768.size a
  h_S128x768 : 0 < S128x768.numel
  transposes_S128x768_p1_0_S768x128 : S128x768.Transposes [1, 0] S768x128
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  reduces_S512x128_S512 : S512x128.Reduces [1] S512
  shapeCasts_S512_S1x512 : S512.ShapeCasts S1x512
  reduces_S1024x128_S1024 : S1024x128.Reduces [1] S1024
  shapeCasts_S1024_S1024x1 : S1024.ShapeCasts S1024x1
  transposes_S512x128_p1_0_S128x512 : S512x128.Transposes [1, 0] S128x512
  broadcasts_S1024x1_S1024x512 : S1024x1.Broadcasts S1024x512
  broadcasts_S1x512_S1024x512 : S1x512.Broadcasts S1024x512
  reduces_S1024x512_S1024 : S1024x512.Reduces [1] S1024
  inb_S1024x512_S1024x512_0_0 : ∀ a, (![0, 0] : Fin 2 → Nat) a + S1024x512.size a ≤ S1024x512.size a
  h_S1024x512 : 0 < S1024x512.numel
  dot_S512x768_S768x128_S512x128_1_0_0_1_n_n_wf : DotDims.WF S512x768 S768x128 S512x128 [1] [0] [0] [1] [] []
  dot_S1024x768_S768x128_S1024x128_1_0_0_1_n_n_wf : DotDims.WF S1024x768 S768x128 S1024x128 [1] [0] [0] [1] [] []
  dot_S1024x128_S128x512_S1024x512_1_0_0_1_n_n_wf : DotDims.WF S1024x128 S128x512 S1024x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S512x128.size a
  hwx0_0 : ∀ i : grid0.Coords, EltTy.bits .f32 = 32 ∨ (Rect.block (s := S512x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x768.size a ≤ S262144x768.size a
  hwx0_1 : ∀ i : grid0.Coords, EltTy.bits .f32 = 32 ∨ (Rect.block (s := S262144x768) S1024x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x768.size a ≤ S128x768.size a
  hwx0_2 : ∀ i : grid0.Coords, EltTy.bits .f32 = 32 ∨ (Rect.block (s := S128x768) S128x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S262144x512.size a
  hwx0_4 : ∀ i : grid0.Coords, EltTy.bits .f32 = 32 ∨ (Rect.block (s := S262144x512) S1024x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S262144x512.size a
  hwx0_5 : ∀ i : grid0.Coords, EltTy.bits .f32 = 32 ∨ (Rect.block (s := S262144x512) S1024x512.size (cc0_transform_5 i) (hinb0_5 i)).WholeWords (EltTy.packing .f32)

variable [Facts₀]

def dot_S512x768_S768x128_S512x128_1_0_0_1_n_n : DotDims S512x768 S768x128 S512x128 where
  lhsContracting := [1]
  rhsContracting := [0]
  lhsNonContracting := [0]
  rhsNonContracting := [1]
  lhsBatch := []
  rhsBatch := []
  wf := dot_S512x768_S768x128_S512x128_1_0_0_1_n_n_wf
def dot_S1024x768_S768x128_S1024x128_1_0_0_1_n_n : DotDims S1024x768 S768x128 S1024x128 where
  lhsContracting := [1]
  rhsContracting := [0]
  lhsNonContracting := [0]
  rhsNonContracting := [1]
  lhsBatch := []
  rhsBatch := []
  wf := dot_S1024x768_S768x128_S1024x128_1_0_0_1_n_n_wf
def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf

abbrev win0_0 : Pipeline.Window sig grid0 :=
  Pipeline.Window.ofSpec (Memref.whole main_v4) S512x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5_0) S1024x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_1) S1024x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S512x768 : Shape := ⟨2, ![512, 768]⟩
abbrev S262144x768 : Shape := ⟨2, ![262144, 768]⟩
abbrev S128x768 : Shape := ⟨2, ![128, 768]⟩
abbrev S128 : Shape := ⟨1, ![128]⟩
abbrev S768x128 : Shape := ⟨2, ![768, 128]⟩
abbrev S512x128 : Shape := ⟨2, ![512, 128]⟩
abbrev S1x128 : Shape := ⟨2, ![1, 128]⟩
abbrev S262144x128 : Shape := ⟨2, ![262144, 128]⟩
abbrev S_ : Shape := ⟨0, ![]⟩
abbrev S262144 : Shape := ⟨1, ![262144]⟩
abbrev S262144x1 : Shape := ⟨2, ![262144, 1]⟩
abbrev S512 : Shape := ⟨1, ![512]⟩
abbrev S1x512 : Shape := ⟨2, ![1, 512]⟩
abbrev S262144x512 : Shape := ⟨2, ![262144, 512]⟩
abbrev S128x512 : Shape := ⟨2, ![128, 512]⟩

abbrev nBuf : Space → Nat
  | .hbm => 63
  | .vmem => 0
  | .smem => 0
  | _ => 0

abbrev bufTy : (tb : Table) → Fin (tcTables nBuf tb) → BufTy
  | .hbm, ⟨0, _⟩ => ⟨S512x768, .f32⟩
  | .hbm, ⟨1, _⟩ => ⟨S262144x768, .f32⟩
  | .hbm, ⟨2, _⟩ => ⟨S128x768, .f32⟩
  | .hbm, ⟨3, _⟩ => ⟨S128, .f32⟩
  | .hbm, ⟨4, _⟩ => ⟨S128x768, .f32⟩
  | .hbm, ⟨5, _⟩ => ⟨S128, .f32⟩
  | .hbm, ⟨6, _⟩ => ⟨S768x128, .f32⟩
  | .hbm, ⟨7, _⟩ => ⟨S512x128, .f32⟩
  | .hbm, ⟨8, _⟩ => ⟨S1x128, .f32⟩
  | .hbm, ⟨9, _⟩ => ⟨S512x128, .f32⟩
  | .hbm, ⟨10, _⟩ => ⟨S512x128, .f32⟩
  | .hbm, ⟨11, _⟩ => ⟨S768x128, .f32⟩
  | .hbm, ⟨12, _⟩ => ⟨S262144x128, .f32⟩
  | .hbm, ⟨13, _⟩ => ⟨S1x128, .f32⟩
  | .hbm, ⟨14, _⟩ => ⟨S262144x128, .f32⟩
  | .hbm, ⟨15, _⟩ => ⟨S262144x128, .f32⟩
  | .hbm, ⟨16, _⟩ => ⟨S262144x128, .f32⟩
  | .hbm, ⟨17, _⟩ => ⟨S_, .f32⟩
  | .hbm, ⟨18, _⟩ => ⟨S262144, .f32⟩
  | .hbm, ⟨19, _⟩ => ⟨S262144x1, .f32⟩
  | .hbm, ⟨20, _⟩ => ⟨S512x128, .f32⟩
  | .hbm, ⟨21, _⟩ => ⟨S_, .f32⟩
  | .hbm, ⟨22, _⟩ => ⟨S512, .f32⟩
  | .hbm, ⟨23, _⟩ => ⟨S1x512, .f32⟩
  | .hbm, ⟨24, _⟩ => ⟨S262144x512, .f32⟩
  | .hbm, ⟨25, _⟩ => ⟨S262144x512, .f32⟩
  | .hbm, ⟨26, _⟩ => ⟨S262144x512, .f32⟩
  | .hbm, ⟨27, _⟩ => ⟨S128x512, .f32⟩
  | .hbm, ⟨28, _⟩ => ⟨S262144x512, .f32⟩
  | .hbm, ⟨29, _⟩ => ⟨S_, .f32⟩
  | .hbm, ⟨30, _⟩ => ⟨S262144x512, .f32⟩
  | .hbm, ⟨31, _⟩ => ⟨S262144x512, .f32⟩
  | .hbm, ⟨32, _⟩ => ⟨S262144x512, .f32⟩
  | .hbm, ⟨33, _⟩ => ⟨S262144x512, .f32⟩
  | .hbm, ⟨34, _⟩ => ⟨S_, .f32⟩
  | .hbm, ⟨35, _⟩ => ⟨S262144, .f32⟩
  | .hbm, ⟨36, _⟩ => ⟨S_, .f32⟩
  | .hbm, ⟨37, _⟩ => ⟨S262144, .f32⟩
  | .hbm, ⟨38, _⟩ => ⟨S262144, .f32⟩
  | .hbm, ⟨39, _⟩ => ⟨S262144x1, .f32⟩
  | .hbm, ⟨40, _⟩ => ⟨S262144x512, .f32⟩
  | .hbm, ⟨41, _⟩ => ⟨S262144x512, .f32⟩
  | .hbm, ⟨42, _⟩ => ⟨S262144x512, .f32⟩
  | .hbm, ⟨43, _⟩ => ⟨S_, .f32⟩
  | .hbm, ⟨44, _⟩ => ⟨S262144, .f32⟩
  | .hbm, ⟨45, _⟩ => ⟨S262144x1, .f32⟩
  | .hbm, ⟨46, _⟩ => ⟨S262144x1, .f32⟩
  | .hbm, ⟨47, _⟩ => ⟨S262144x512, .f32⟩
  | .hbm, ⟨48, _⟩ => ⟨S262144x512, .f32⟩
  | .hbm, ⟨49, _⟩ => ⟨S_, .f32⟩
  | .hbm, ⟨50, _⟩ => ⟨S262144, .f32⟩
  | .hbm, ⟨51, _⟩ => ⟨S_, .f32⟩
  | .hbm, ⟨52, _⟩ => ⟨S262144, .f32⟩
  | .hbm, ⟨53, _⟩ => ⟨S262144, .f32⟩
  | .hbm, ⟨54, _⟩ => ⟨S262144x1, .f32⟩
  | .hbm, ⟨55, _⟩ => ⟨S262144x512, .f32⟩
  | .hbm, ⟨56, _⟩ => ⟨S262144x512, .f32⟩
  | .hbm, ⟨57, _⟩ => ⟨S262144x512, .f32⟩
  | .hbm, ⟨58, _⟩ => ⟨S_, .f32⟩
  | .hbm, ⟨59, _⟩ => ⟨S262144, .f32⟩
  | .hbm, ⟨60, _⟩ => ⟨S262144x1, .f32⟩
  | .hbm, ⟨61, _⟩ => ⟨S262144x512, .f32⟩
  | .hbm, ⟨62, _⟩ => ⟨S262144x512, .f32⟩
  | _, _ => ⟨S512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_call0_cst : Ref sig .tc := ⟨.hbm, 34, rfl⟩
abbrev main_call0_v0 : Ref sig .tc := ⟨.hbm, 35, rfl⟩
abbrev main_call0_cst_0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_cst_1 : Ref sig .tc := ⟨.hbm, 43, rfl⟩
abbrev main_call0_v7 : Ref sig .tc := ⟨.hbm, 44, rfl⟩
abbrev main_call0_v8 : Ref sig .tc := ⟨.hbm, 45, rfl⟩
abbrev main_call0_v9 : Ref sig .tc := ⟨.hbm, 46, rfl⟩
abbrev main_call0_v10 : Ref sig .tc := ⟨.hbm, 47, rfl⟩
abbrev main_v25 : Ref sig .tc := ⟨.hbm, 48, rfl⟩
abbrev main_cst_2 : Ref sig .tc := ⟨.hbm, 49, rfl⟩
abbrev main_v26 : Ref sig .tc := ⟨.hbm, 50, rfl⟩
abbrev main_cst_3 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_4 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩

abbrev nD : Nat := 1
abbrev τ : Topo := Topo.v7x

variable {F : FTy → Type} [FloatOps F]

class Facts₀ : Prop where
  transposes_S128x768_S768x128_1_0 : S128x768.Transposes [1, 0] S768x128
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  bcast_S1x128_S262144x128_0_1 : S1x128.BroadcastsInDim S262144x128 (![0, 1] : Fin 2 → Fin S262144x128.rank)
  reducesTo_S262144x128_S262144_d1 : S262144x128.ReducesTo [1] S262144
  h_S_ : 0 < S_.numel
  bcast_S262144_S262144x1_0 : S262144.BroadcastsInDim S262144x1 (![0] : Fin 1 → Fin S262144x1.rank)
  reducesTo_S512x128_S512_d1 : S512x128.ReducesTo [1] S512
  bcast_S512_S1x512_1 : S512.BroadcastsInDim S1x512 (![1] : Fin 1 → Fin S1x512.rank)
  bcast_S262144x1_S262144x512_0_1 : S262144x1.BroadcastsInDim S262144x512 (![0, 1] : Fin 2 → Fin S262144x512.rank)
  bcast_S1x512_S262144x512_0_1 : S1x512.BroadcastsInDim S262144x512 (![0, 1] : Fin 2 → Fin S262144x512.rank)
  transposes_S512x128_S128x512_1_0 : S512x128.Transposes [1, 0] S128x512
  bcast_S_S262144x512 : S_.BroadcastsInDim S262144x512 (![] : Fin 0 → Fin S262144x512.rank)
  reducesTo_S262144x512_S262144_d1 : S262144x512.ReducesTo [1] S262144
  bcast_S_S262144 : S_.BroadcastsInDim S262144 (![] : Fin 0 → Fin S262144.rank)
  dot_S512x768_S768x128_S512x128_1_0_0_1_n_n_wf : DotDims.WF S512x768 S768x128 S512x128 [1] [0] [0] [1] [] []
  dot_S262144x768_S768x128_S262144x128_1_0_0_1_n_n_wf : DotDims.WF S262144x768 S768x128 S262144x128 [1] [0] [0] [1] [] []
  dot_S262144x128_S128x512_S262144x512_1_0_0_1_n_n_wf : DotDims.WF S262144x128 S128x512 S262144x512 [1] [0] [0] [1] [] []

variable [Facts₀]

def dot_S512x768_S768x128_S512x128_1_0_0_1_n_n : DotDims S512x768 S768x128 S512x128 where
  lhsContracting := [1]
  rhsContracting := [0]
  lhsNonContracting := [0]
  rhsNonContracting := [1]
  lhsBatch := []
  rhsBatch := []
  wf := dot_S512x768_S768x128_S512x128_1_0_0_1_n_n_wf
def dot_S262144x768_S768x128_S262144x128_1_0_0_1_n_n : DotDims S262144x768 S768x128 S262144x128 where
  lhsContracting := [1]
  rhsContracting := [0]
  lhsNonContracting := [0]
  rhsNonContracting := [1]
  lhsBatch := []
  rhsBatch := []
  wf := dot_S262144x768_S768x128_S262144x128_1_0_0_1_n_n_wf
def dot_S262144x128_S128x512_S262144x512_1_0_0_1_n_n : DotDims S262144x128 S128x512 S262144x512 where
  lhsContracting := [1]
  rhsContracting := [0]
  lhsNonContracting := [0]
  rhsNonContracting := [1]
  lhsBatch := []
  rhsBatch := []
  wf := dot_S262144x128_S128x512_S262144x512_1_0_0_1_n_n_wf

class Facts : Prop extends Facts₀ where

variable [Facts]
-- ==== Proof.LibFinite.lean ====
/-
  Finite extended reals. An extended real is FINITE when it is a real number. Sums, products, maxima and quotients
  by a non-zero divisor of finite values are finite, and on finite values multiplication distributes over addition
  (on the extended reals it does not in general: `⊤ * (1 + -1) = 0` but `⊤ * 1 + ⊤ * -1 = ⊥`). The last section
  states the two laws a "dense combine" step needs: a sum of products against a sum of two matrices splits into two
  sums of products, and the regrouping of six summands that carries a combined bias to the two summands it belongs to.
-/
import Idealize.ShloMosaic.PureOps.Ideal.Laws

noncomputable section

namespace Cert.LibFinite

open Idealize.ShloMosaic

/-- `x` is a real number (neither `⊤` nor `⊥`). -/
def IsFin (x : EReal) : Prop := ∃ r : ℝ, x = (r : EReal)

namespace IsFin

theorem coe (r : ℝ) : IsFin (r : EReal) := ⟨r, rfl⟩
theorem zero : IsFin (0 : EReal) := ⟨0, rfl⟩
theorem one : IsFin (1 : EReal) := ⟨1, rfl⟩

theorem add {x y : EReal} (hx : IsFin x) (hy : IsFin y) : IsFin (x + y) := by
  obtain ⟨a, rfl⟩ := hx; obtain ⟨b, rfl⟩ := hy
  exact ⟨a + b, (EReal.coe_add a b).symm⟩

theorem mul {x y : EReal} (hx : IsFin x) (hy : IsFin y) : IsFin (x * y) := by
  obtain ⟨a, rfl⟩ := hx; obtain ⟨b, rfl⟩ := hy
  exact ⟨a * b, (EReal.coe_mul a b).symm⟩

theorem max {x y : EReal} (hx : IsFin x) (hy : IsFin y) : IsFin (max x y) := by
  obtain ⟨a, rfl⟩ := hx; obtain ⟨b, rfl⟩ := hy
  rcases le_total a b with h | h
  · rw [max_eq_right (EReal.coe_le_coe_iff.mpr h)]; exact ⟨b, rfl⟩
  · rw [max_eq_left (EReal.coe_le_coe_iff.mpr h)]; exact ⟨a, rfl⟩

theorem sum {ι : Type} (s : Finset ι) (f : ι → EReal) (h : ∀ i ∈ s, IsFin (f i)) : IsFin (∑ i ∈ s, f i) :=
  Finset.sum_induction f IsFin (fun _ _ => add) zero h

/-- The quotient of the ideal instance by a finite non-zero divisor. -/
theorem div {x y : EReal} (hx : IsFin x) (hy : IsFin y) (h0 : y ≠ 0) : IsFin (Ideal.div x y) := by
  obtain ⟨a, rfl⟩ := hx; obtain ⟨b, rfl⟩ := hy
  unfold Ideal.div
  rw [if_neg h0, ← EReal.coe_inv, ← EReal.coe_mul]
  exact ⟨_, rfl⟩

/-- A maximum against one is not zero (the divisor of a mean over a count that may be zero). -/
theorem max_one_ne_zero (x : EReal) : Max.max x 1 ≠ 0 :=
  ne_of_gt (lt_of_lt_of_le zero_lt_one (le_max_right x 1))

end IsFin

/-! ## The laws on finite values -/

/-- On finite values multiplication distributes over addition. -/
theorem mul_add_of_fin {x a b : EReal} (hx : IsFin x) (ha : IsFin a) (hb : IsFin b) : x * (a + b) = x * a + x * b := by
  obtain ⟨x, rfl⟩ := hx; obtain ⟨a, rfl⟩ := ha; obtain ⟨b, rfl⟩ := hb
  rw [← EReal.coe_add, ← EReal.coe_mul, ← EReal.coe_mul, ← EReal.coe_mul, ← EReal.coe_add, mul_add]

/-- A sum of products against a sum of two families splits, all factors finite: row `x` against the column of
    `A + B` is row `x` against the column of `A` plus row `x` against the column of `B`. -/
theorem sum_mul_add {ι : Type} [Fintype ι] (x a b : ι → EReal) (hx : ∀ k, IsFin (x k)) (ha : ∀ k, IsFin (a k))
    (hb : ∀ k, IsFin (b k)) : ∑ k, x k * (a k + b k) = ∑ k, x k * a k + ∑ k, x k * b k := by
  rw [← Finset.sum_add_distrib]
  exact Finset.sum_congr rfl fun k _ => mul_add_of_fin (hx k) (ha k) (hb k)

/-- Six summands regrouped: the two aggregated terms `P`, `Q`, the two self terms `X₀`, `X₃` and the two biases, summed
    as "(P + Q) + (X₀ + X₃) + (b₀ + b₃)", are the sum of the two relations' own "(P + b₀) + X₀" and "(Q + b₃) + X₃".
    Addition of extended reals is commutative and associative everywhere, so no finiteness is needed. -/
theorem combine_regroup (P Q X₀ X₃ b₀ b₃ : EReal) :
    P + Q + (X₀ + X₃) + (b₀ + b₃) = (P + b₀ + X₀) + (Q + b₃ + X₃) := by
  abel

end Cert.LibFinite

end
-- ==== Proof.Spec.lean ====
/-
  The mathematics both programs compute, over the extended reals, with no program in sight.

  A row of T logits L is turned into its log-softmax and its softmax: with M the maximum of the row (folded from the
  value of the pattern of minus infinity), the shifted row is L - M, the normaliser is S = sum over the row of
  exp (L - M), the log-softmax entry is (L j - M) - log S and the softmax entry is exp (L j - M) / S.

  The logits are minus the squared distances between a projected word w (a vector of length M) and the projected
  tags t (T vectors of length M), expanded as 2 (w . t j) - |w|^2 - |t j|^2. The other spelling,
  -((|w|^2 + |t j|^2) - 2 (w . t j)) with each squared norm summed from a literal zero, is the same number when every
  entry is finite; on the extended reals the sign cannot be moved through a sum that holds an infinity, so the
  equation is stated for finite entries.

  A projection is a row of an embedding matrix against a row of a weight matrix, plus a bias: affine, and finite on
  finite data.
-/
import Idealize.ShloMosaic.PureOps.Ideal.Laws
import Idealize.ShloMosaic.Lib.ValueIdx
import proofs.«144832_j33964601376969_2_alg».proof.Proof.LibFinite

noncomputable section

open scoped BigOperators

namespace Cert.Spec

open Idealize.ShloMosaic Idealize.ShloMosaic.ValueIdx Cert.LibFinite

/-- The value of the pattern of minus infinity, the start of a row maximum. It is never evaluated: both programs fold
    from the same word. -/
abbrev negInf : EReal := Ideal.ofBits .f32 0xFF800000#32
/-- The value of the pattern of 2.0. -/
abbrev two : EReal := Ideal.ofBits .f32 0x40000000#32

/-- The pattern of 2.0 denotes the real number 2. -/
theorem two_eq : two = ((2 : ℝ) : EReal) := by
  simp [two, Ideal.ofBits, Ideal.ieee, -EReal.coe_mul]; norm_num

variable {T M B R : ℕ}

/-! ## A row's log-softmax and softmax -/

/-- The maximum of a row, folded from `negInf`. -/
def rowMax (L : Fin T → EReal) : EReal := (Finset.univ : Finset (Fin T)).fold max negInf L

/-- The normaliser: the sum over the row of the exponentials of the shifted entries. -/
def sumExp (L : Fin T → EReal) : EReal := ∑ q : Fin T, Ideal.exp (L q - rowMax L)

/-- An entry of the row's log-softmax. -/
def logSoftmax (L : Fin T → EReal) (j : Fin T) : EReal := (L j - rowMax L) - Ideal.log (sumExp L)

/-- An entry of the row's softmax. -/
def softmax (L : Fin T → EReal) (j : Fin T) : EReal := Ideal.div (Ideal.exp (L j - rowMax L)) (sumExp L)

/-- A maximum taken once more against the fold's own start changes nothing: the start is below the fold. -/
theorem max_negInf_rowMax (L : Fin T → EReal) : max negInf (rowMax L) = rowMax L :=
  max_eq_right ((Finset.le_fold_max negInf).mpr (Or.inl le_rfl))

/-! ## Projections and logits -/

/-- Row `r` of the embeddings `e` against row `k` of the weights `W`, plus the bias. -/
def proj (e : Fin R → Fin B → EReal) (W : Fin M → Fin B → EReal) (b : Fin M → EReal) (r : Fin R) (k : Fin M) : EReal :=
  (∑ c : Fin B, e r c * W k c) + b k

/-- A projection of finite data is finite. -/
theorem proj_fin {e : Fin R → Fin B → EReal} {W : Fin M → Fin B → EReal} {b : Fin M → EReal}
    (he : ∀ r c, IsFin (e r c)) (hW : ∀ k c, IsFin (W k c)) (hb : ∀ k, IsFin (b k)) (r : Fin R) (k : Fin M) :
    IsFin (proj e W b r k) :=
  IsFin.add (IsFin.sum _ _ fun c _ => IsFin.mul (he r c) (hW k c)) (hb k)

/-- Minus the squared distance from the word `w` to tag `j`, expanded: twice the inner product, minus the word's squared
    norm, minus the tag's squared norm. -/
def logit (w : Fin M → EReal) (t : Fin T → Fin M → EReal) (j : Fin T) : EReal :=
  (two * (∑ k : Fin M, w k * t j k) - ∑ k : Fin M, w k * w k) - ∑ k : Fin M, t j k * t j k

/-- The same number spelt as the negated distance, each squared norm summed from the literal zero. -/
def logitNeg (w : Fin M → EReal) (t : Fin T → Fin M → EReal) (j : Fin T) : EReal :=
  -(((Ideal.ofBits .f32 0x00000000#32 + ∑ k : Fin M, w k * w k) + (Ideal.ofBits .f32 0x00000000#32 + ∑ k : Fin M, t j k * t j k))
      - two * ∑ k : Fin M, w k * t j k)

/-- On finite entries the two spellings agree: for real numbers -((a + b) - 2c) = (2c - a) - b. -/
theorem logitNeg_eq (w : Fin M → EReal) (t : Fin T → Fin M → EReal) (j : Fin T)
    (hw : ∀ k, IsFin (w k)) (ht : ∀ k, IsFin (t j k)) : logitNeg w t j = logit w t j := by
  obtain ⟨a, ha⟩ := IsFin.sum Finset.univ (fun k : Fin M => w k * w k) fun k _ => IsFin.mul (hw k) (hw k)
  obtain ⟨b, hb⟩ := IsFin.sum Finset.univ (fun k : Fin M => t j k * t j k) fun k _ => IsFin.mul (ht k) (ht k)
  obtain ⟨c, hc⟩ := IsFin.sum Finset.univ (fun k : Fin M => w k * t j k) fun k _ => IsFin.mul (hw k) (ht k)
  unfold logitNeg logit
  rw [ha, hb, hc, two_eq, Ideal.ofBits_zero_f32, zero_add, zero_add]
  simp only [← EReal.coe_mul, ← EReal.coe_add, ← EReal.coe_sub, ← EReal.coe_neg]
  exact congrArg _ (by ring)

/-! ## The two results as whole arrays -/

section Arrays

variable (te : (⟨2, ![512, 768]⟩ : Shape).Idx → EReal) (we : (⟨2, ![262144, 768]⟩ : Shape).Idx → EReal)
  (tW : (⟨2, ![128, 768]⟩ : Shape).Idx → EReal) (tb : (⟨1, ![128]⟩ : Shape).Idx → EReal)
  (wW : (⟨2, ![128, 768]⟩ : Shape).Idx → EReal) (wb : (⟨1, ![128]⟩ : Shape).Idx → EReal)

/-- The projected tags: tag `j`, coordinate `k`. -/
def tagsProj (j : Fin 512) (k : Fin 128) : EReal :=
  proj (fun j c => te (ix2 j c)) (fun k c => tW (ix2 k c)) (fun k => tb (ix1 k)) j k

/-- The logits of word `r` against the 512 tags, from the six argument arrays. -/
def wordLogits (r : Fin 262144) : Fin 512 → EReal :=
  logit (proj (fun r c => we (ix2 r c)) (fun k c => wW (ix2 k c)) (fun k => wb (ix1 k)) r) (tagsProj te tW tb)

/-- The first result: the log-softmax of every word's logits. -/
def logProbs : (⟨2, ![262144, 512]⟩ : Shape).Idx → EReal :=
  fun i => logSoftmax (wordLogits te we tW tb wW wb ⟨(i 0).val, idx2_lt0 i⟩) ⟨(i 1).val, idx2_lt1 i⟩

/-- The second result: the softmax of every word's logits. -/
def probs : (⟨2, ![262144, 512]⟩ : Shape).Idx → EReal :=
  fun i => softmax (wordLogits te we tW tb wW wb ⟨(i 0).val, idx2_lt0 i⟩) ⟨(i 1).val, idx2_lt1 i⟩

end Arrays

end Cert.Spec

end
-- ==== Proof.LibMatmulPlain.lean ====
/-
  A plain matrix product read at an index, over the extended reals.

  For the dimension numbers of an [M, K] by [K, N] product with no batch axis (the left operand contracted on its
  second axis, the right operand on its first), the matrix unit's product at the entry (p, q) is the accumulator's
  entry plus the sum over k < K of A (p, k) * B (k, q); into a zero accumulator it is that sum alone. The extents
  M, K, N are arbitrary, and so are the operands' float formats (a change of format is the identity here).
-/
import Idealize.ShloMosaic.PureOps.Ideal.Laws
import Idealize.ShloMosaic.Lib.ValueIdx

noncomputable section

open scoped BigOperators

namespace Idealize.ShloMosaic.MatmulPlain

open Idealize.ShloMosaic Idealize.ShloMosaic.ValueIdx

variable {M K N : Nat}

/-- The contraction of a plain product has one axis, -/
theorem contr_rank : (DotDims.plain M K N).contr.rank = 1 := rfl
/-- of extent K. -/
theorem contr_size : (DotDims.plain M K N).contr.size ⟨0, by rw [contr_rank]; exact Nat.one_pos⟩ = K := rfl

/-- The left operand is read at row `j 0` and at the contraction position as its column. -/
theorem lhsIdx_eq (j : (⟨2, ![M, N]⟩ : Shape).Idx) (k : Fin K) :
    (DotDims.plain M K N).lhsIdx j ((contrEquiv1 (DotDims.plain M K N) K contr_rank contr_size).symm k) = ix2 (j 0) k := by
  funext a
  apply Fin.ext
  match a with
  | ⟨0, _⟩ => rfl
  | ⟨1, _⟩ =>
    refine ((DotDims.plain M K N).lhsIdx_val_of_single (cl := 1) rfl j _).trans ?_
    exact contrEquiv1_symm_val (DotDims.plain M K N) K contr_rank contr_size k

/-- The right operand is read at the contraction position as its row and at column `j 1`. -/
theorem rhsIdx_eq (j : (⟨2, ![M, N]⟩ : Shape).Idx) (k : Fin K) :
    (DotDims.plain M K N).rhsIdx j ((contrEquiv1 (DotDims.plain M K N) K contr_rank contr_size).symm k) = ix2 k (j 1) := by
  funext a
  apply Fin.ext
  match a with
  | ⟨0, _⟩ =>
    refine ((DotDims.plain M K N).rhsIdx_val_of_single (cr := 0) rfl j _).trans ?_
    exact contrEquiv1_symm_val (DotDims.plain M K N) K contr_rank contr_size k
  | ⟨1, _⟩ => rfl

/-- A plain product into any accumulator, at an entry: the accumulator's entry plus the row-by-column sum. -/
theorem matmul_apply {φ₁ φ₂ : FTy} (prec : Option ContractPrecision) (A : FVec Ideal ⟨2, ![M, K]⟩ φ₁)
    (B : FVec Ideal ⟨2, ![K, N]⟩ φ₂) (acc : FVec Ideal ⟨2, ![M, N]⟩ .f32) (j : (⟨2, ![M, N]⟩ : Shape).Idx) :
    matmul (DotDims.plain M K N) prec A B acc j = acc j + ∑ k : Fin K, A (ix2 (j 0) k) * B (ix2 k (j 1)) := by
  refine (Ideal.matmul_apply (DotDims.plain M K N) prec A B acc j).trans ?_
  congr 1
  rw [← Equiv.sum_comp (contrEquiv1 (DotDims.plain M K N) K contr_rank contr_size).symm]
  exact Finset.sum_congr rfl fun k _ => by rw [lhsIdx_eq, rhsIdx_eq]; rfl

/-- Into the zero accumulator: the row-by-column sum alone. -/
theorem matmul_zero_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    matmul (DotDims.plain M K N) prec A B (constant (F := Ideal) ⟨2, ![M, N]⟩ .f32 0x00000000#32) j
      = ∑ k : Fin K, A (ix2 (j 0) k) * B (ix2 k (j 1)) := by
  rw [matmul_apply]
  show Ideal.ofBits .f32 0x00000000#32 + _ = _
  rw [Ideal.ofBits_zero_f32, zero_add]

end Idealize.ShloMosaic.MatmulPlain

end
-- ==== Proof.LibKeepdims.lean ====
/-
  The column forms a sum that keeps its reduced axis goes through, read at an index.

  A row sum that keeps the reduced axis as a unit axis (`keepdims`) leaves a vector of length `a`, casts it to the
  column `[a, 1]`, and broadcasts the column across `b` lanes to `[a, b]`. Read at an index: the column at `(i, u)` is
  the vector at `i`, and the broadcast at `(i, j)` is the column at `(i, 0)`, for arbitrary extents and any element
  type. (The leading-unit-axis casts and the row broadcast `[1, b] → [a, b]` are the library's.)
-/
import Idealize.ShloMosaic.Lib.Pipeline.Value
import Idealize.ShloMosaic.Lib.ValueIdx

namespace Idealize.ShloMosaic.Keepdims

open Idealize.ShloMosaic Idealize.ShloMosaic.ValueIdx

variable {α : Type}

/-- A vector of length `a` cast to the column `[a, 1]` reads, at `(i, u)`, the vector at `i`: the two indices have
    the same row-major position `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`: the row coordinate is
    kept (also when `a = 1`, where it can only be `0`), the unit axis is read at `0`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.Keepdims
-- ==== Proof.KBody.lean ====
/-
  The kernel's body at one grid point, read entry by entry over the extended reals.

  The body loads a block of 1024 word embeddings P0, the word weights P1, the word bias P2 and the projected tags P3
  (512 rows of length 128). It projects the block's words (a matrix product with the transposed weights, plus the bias
  broadcast down the rows), forms the logits 2 (w . t) - |w|^2 - |t|^2 from one more matrix product and two row
  sums, subtracts each row's maximum, and finishes with the exponentials' row sums. Every layout step (transposes,
  casts to a column or a row, broadcasts) only moves entries, so at the entry (p, q) of the block the body's value
  is the row softmax of the specification applied to the logits of word p.
-/
import proofs.«144832_j33964601376969_2_alg».proof.Proof.Gen.KernelIdeal.Skeleton
import proofs.«144832_j33964601376969_2_alg».proof.Proof.Spec
import proofs.«144832_j33964601376969_2_alg».proof.Proof.LibMatmulPlain
import proofs.«144832_j33964601376969_2_alg».proof.Proof.LibKeepdims
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.Spec

/-! ## The body cut into its stages -/

/-- The block's projected words: the embeddings times the transposed weights, plus the bias on every row. -/
def wordsV (P0 : FVec Ideal S1024x768 .f32) (P1 : FVec Ideal S128x768 .f32) (P2 : FVec Ideal S128 .f32) : FVec Ideal S1024x128 .f32 :=
  addf (matmul dot_S1024x768_S768x128_S1024x128_1_0_0_1_n_n none (truncf .bf16 P0 bitsLt_bf16_f32)
      (transpose S768x128 [1, 0] (truncf .bf16 P1 bitsLt_bf16_f32) transposes_S128x768_p1_0_S768x128) (constant (F := Ideal) S1024x128 .f32 0x00000000#32))
    (broadcastTo S1024x128 (shapeCast S1x128 P2 shapeCasts_S128_S1x128) broadcasts_S1x128_S1024x128)

/-- The block's logits from its projected words `w` and the projected tags `t`. -/
def logitsV (w : FVec Ideal S1024x128 .f32) (t : FVec Ideal S512x128 .f32) : FVec Ideal S1024x512 .f32 :=
  subf (subf (mulf (broadcast S1024x512 (Scalar.ofBits (F := Ideal) .f32 0x40000000#32))
        (matmul dot_S1024x128_S128x512_S1024x512_1_0_0_1_n_n (some .fp32) w
          (transpose S128x512 [1, 0] (shapeCast S512x128 t shapeCasts_S512x128_S512x128) transposes_S512x128_p1_0_S128x512)
          (constant (F := Ideal) S1024x512 .f32 0x00000000#32)))
      (broadcastTo S1024x512 (shapeCast S1024x1 (multiReduction .add [1] S1024 (mulf w w) 0x00000000#32 reduces_S1024x128_S1024 (.inl rfl) rfl)
        shapeCasts_S1024_S1024x1) broadcasts_S1024x1_S1024x512))
    (broadcastTo S1024x512 (shapeCast S1x512 (multiReduction .add [1] S512
        (mulf (shapeCast S512x128 t shapeCasts_S512x128_S512x128) (shapeCast S512x128 t shapeCasts_S512x128_S512x128))
        0x00000000#32 reduces_S512x128_S512 (.inl rfl) rfl) shapeCasts_S512_S1x512) broadcasts_S1x512_S1024x512)

/-- A block minus its row maxima. -/
def shiftV (L : FVec Ideal S1024x512 .f32) : FVec Ideal S1024x512 .f32 :=
  subf L (broadcastTo S1024x512 (shapeCast S1024x1 (multiReduction .maximumf [1] S1024 L 0xFF800000#32 reduces_S1024x512_S1024 (.inl rfl) rfl)
    shapeCasts_S1024_S1024x1) broadcasts_S1024x1_S1024x512)

/-- The body's shifted logits are these stages composed. -/
theorem pay1_eq (P0 : FVec Ideal S1024x768 .f32) (P1 : FVec Ideal S128x768 .f32) (P2 : FVec Ideal S128 .f32) (P3 : FVec Ideal S512x128 .f32) :
    k0_pay1 (F := Ideal) P0 P1 P2 P3 = shiftV (logitsV (wordsV P0 P1 P2) P3) := rfl

/-! ## Where a row reduction reads -/

/-- In a [1024, 512] block the entries that reduce to row `p` are `(p, q)`. -/
theorem lift_1024x512 (p : Fin 1024) (q : Fin 512) : reduces_S1024x512_S1024.lift (ix1 p) q = ix2 p q := by
  funext a; apply Fin.ext; match a with | ⟨0, _⟩ => rfl | ⟨1, _⟩ => rfl

/-- In a [1024, 128] block the entries that reduce to row `p` are `(p, k)`. -/
theorem lift_1024x128 (p : Fin 1024) (k : Fin 128) : reduces_S1024x128_S1024.lift (ix1 p) k = ix2 p k := by
  funext a; apply Fin.ext; match a with | ⟨0, _⟩ => rfl | ⟨1, _⟩ => rfl

/-- In a [512, 128] array the entries that reduce to row `j` are `(j, k)`. -/
theorem lift_512x128 (j : Fin 512) (k : Fin 128) : reduces_S512x128_S512.lift (ix1 j) k = ix2 j k := by
  funext a; apply Fin.ext; match a with | ⟨0, _⟩ => rfl | ⟨1, _⟩ => rfl

/-! ## The stages at an entry -/

/-- A projected word of the block, entry by entry. -/
theorem wordsV_apply (P0 : FVec Ideal S1024x768 .f32) (P1 : FVec Ideal S128x768 .f32) (P2 : FVec Ideal S128 .f32) (p : Fin 1024) (k : Fin 128) :
    wordsV P0 P1 P2 (ix2 p k) = proj (fun r c => P0 (ix2 r c)) (fun k c => P1 (ix2 k c)) (fun k => P2 (ix1 k)) p k := by
  unfold wordsV proj
  rw [addf_apply]
  refine congrArg₂ (fun a b : EReal => a + b) ?_ ?_
  · refine (MatmulPlain.matmul_zero_apply (M := 1024) (K := 768) (N := 128) none _ _ (ix2 p k)).trans ?_
    refine Finset.sum_congr rfl fun c _ => ?_
    refine congrArg₂ (fun a b : EReal => a * b) rfl ?_
    exact transpose_apply [1, 0] _ _ (ix2 c k) (ix2 k c) (fun b => match b with | ⟨0, _⟩ => rfl | ⟨1, _⟩ => rfl)
  · exact (broadcastTo_1b_ab_apply _ _ p k).trans (shapeCast_a_1a_apply _ _ 0 k)

/-- The logits of the block, entry by entry: word `p` against tag `q`. -/
theorem logitsV_apply (w : FVec Ideal S1024x128 .f32) (t : FVec Ideal S512x128 .f32) (p : Fin 1024) (q : Fin 512) :
    logitsV w t (ix2 p q) = logit (fun k => w (ix2 p k)) (fun j k => t (ix2 j k)) q := by
  unfold logitsV logit
  rw [subf_apply, subf_apply, mulf_apply, shapeCast_self]
  refine congrArg₂ (fun a b : EReal => a - b) (congrArg₂ (fun a b : EReal => a - b) (congrArg₂ (fun a b : EReal => a * b) rfl ?_) ?_) ?_
  · refine (MatmulPlain.matmul_zero_apply (M := 1024) (K := 128) (N := 512) (some .fp32) _ _ (ix2 p q)).trans ?_
    refine Finset.sum_congr rfl fun k _ => ?_
    refine congrArg₂ (fun a b : EReal => a * b) rfl ?_
    exact transpose_apply [1, 0] _ _ (ix2 k q) (ix2 q k) (fun b => match b with | ⟨0, _⟩ => rfl | ⟨1, _⟩ => rfl)
  · refine (Keepdims.broadcastTo_a1_ab_apply _ _ p q).trans ((Keepdims.shapeCast_a_a1_apply _ _ p 0).trans ?_)
    refine (Ideal.multiReduction_add_single (mulf w w) 0x00000000#32 reduces_S1024x128_S1024 (.inl rfl) rfl (ix1 p)).trans ?_
    exact Finset.sum_congr rfl fun k _ => congrArg (mulf w w) (lift_1024x128 p k)
  · refine (broadcastTo_1b_ab_apply _ _ p q).trans ((shapeCast_a_1a_apply _ _ 0 q).trans ?_)
    refine (Ideal.multiReduction_add_single (mulf t t) 0x00000000#32 reduces_S512x128_S512 (.inl rfl) rfl (ix1 q)).trans ?_
    exact Finset.sum_congr rfl fun k _ => congrArg (mulf t t) (lift_512x128 q k)

/-- A block minus its row maxima, entry by entry. -/
theorem shiftV_apply (L : FVec Ideal S1024x512 .f32) (p : Fin 1024) (q : Fin 512) :
    shiftV L (ix2 p q) = L (ix2 p q) - rowMax (fun q' => L (ix2 p q')) := by
  unfold shiftV rowMax
  rw [subf_apply]
  refine congrArg₂ (fun a b : EReal => a - b) rfl ?_
  refine (Keepdims.broadcastTo_a1_ab_apply _ _ p q).trans ((Keepdims.shapeCast_a_a1_apply _ _ p 0).trans ?_)
  refine (Ideal.multiReduction_maximumf_single L 0xFF800000#32 reduces_S1024x512_S1024 (.inl rfl) rfl (ix1 p)).trans ?_
  exact congrArg (fun f : Fin 512 → EReal => Finset.fold max negInf f Finset.univ)
    (funext fun q' => congrArg L (lift_1024x512 p q') : (L ∘ reduces_S1024x512_S1024.lift (ix1 p)) = fun q' : Fin 512 => L (ix2 p q'))

/-- The row sums of the exponentials of a block, entry by entry. -/
theorem sumExpV_apply (X : FVec Ideal S1024x512 .f32) (p : Fin 1024) :
    multiReduction .add [1] S1024 (exp X) 0x00000000#32 reduces_S1024x512_S1024 (.inl rfl) rfl (ix1 p)
      = ∑ q' : Fin 512, Ideal.exp (X (ix2 p q')) := by
  refine (Ideal.multiReduction_add_single (exp X) 0x00000000#32 reduces_S1024x512_S1024 (.inl rfl) rfl (ix1 p)).trans ?_
  exact Finset.sum_congr rfl fun q' _ => congrArg (fun i => Ideal.exp (X i)) (lift_1024x512 p q')

/-- The body's shifted logits at the entry (p, q): the logits of word `p` minus their maximum. -/
theorem pay1_apply (P0 : FVec Ideal S1024x768 .f32) (P1 : FVec Ideal S128x768 .f32) (P2 : FVec Ideal S128 .f32) (P3 : FVec Ideal S512x128 .f32)
    (p : Fin 1024) (q : Fin 512) :
    k0_pay1 (F := Ideal) P0 P1 P2 P3 (ix2 p q)
      = logit (proj (fun r c => P0 (ix2 r c)) (fun k c => P1 (ix2 k c)) (fun k => P2 (ix1 k)) p) (fun j k => P3 (ix2 j k)) q
        - rowMax (logit (proj (fun r c => P0 (ix2 r c)) (fun k c => P1 (ix2 k c)) (fun k => P2 (ix1 k)) p) (fun j k => P3 (ix2 j k))) := by
  have hL : ∀ q' : Fin 512, logitsV (wordsV P0 P1 P2) P3 (ix2 p q')
      = logit (proj (fun r c => P0 (ix2 r c)) (fun k c => P1 (ix2 k c)) (fun k => P2 (ix1 k)) p) (fun j k => P3 (ix2 j k)) q' := fun q' => by
    rw [logitsV_apply]
    exact congrArg (fun w => logit w (fun j k => P3 (ix2 j k)) q') (funext fun k => wordsV_apply P0 P1 P2 p k)
  rw [pay1_eq, shiftV_apply, hL q]
  exact congrArg (fun f => _ - rowMax f) (funext hL)

end Cert.KernelIdeal.Body

end
-- ==== Proof.LibHostDotPlain.lean ====
/-
  The host's plain matrix product read at an index, over the extended reals.

  For the dimension numbers of an [M, K] by [K, N] product with no batch axis, the host's dot_general at the entry
  (p, q) is the sum over k < K of A (p, k) * B (k, q), whatever precision it is asked for. The extents are arbitrary,
  and so are the operands' float formats.
-/
import proofs.«144832_j33964601376969_2_alg».proof.Proof.LibMatmulPlain

noncomputable section

open scoped BigOperators

namespace Idealize.ShloMosaic.HostDotPlain

open Idealize.ShloMosaic Idealize.ShloMosaic.ValueIdx

variable {M K N : Nat}

/-- The host's plain product at an entry: the row-by-column sum. -/
theorem dotGeneral_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    Host.dotGeneral (F := Ideal) (DotDims.plain M K N) prec A B j = ∑ k : Fin K, A (ix2 (j 0) k) * B (ix2 k (j 1)) := by
  refine (Ideal.dotGeneral_apply (DotDims.plain M K N) prec .single A B j).trans ?_
  rw [← Equiv.sum_comp (contrEquiv1 (DotDims.plain M K N) K MatmulPlain.contr_rank MatmulPlain.contr_size).symm]
  exact Finset.sum_congr rfl fun k _ => by rw [MatmulPlain.lhsIdx_eq, MatmulPlain.rhsIdx_eq]; rfl

end Idealize.ShloMosaic.HostDotPlain

end
-- ==== Proof.KValue.lean ====
/-
  From blocks to the whole arrays: what the kernel's program leaves in its two results.

  Grid point t stages rows 1024 t .. 1024 t + 1023 of the word embeddings, the whole word weights and bias, and the
  whole array of projected tags that the host operations before the call computed (the tag embeddings times the
  transposed tag weights, plus the tag bias). The body's two stores, read entry by entry, are the log-softmax and the
  softmax of the logits of word 1024 t + p at column q; the 256 blocks written back tile the [262144, 512] results.
  So each result array ends holding the specification's array.
-/
import proofs.«144832_j33964601376969_2_alg».proof.Proof.Gen.KernelIdeal.Value
import proofs.«144832_j33964601376969_2_alg».proof.Proof.KBody
import proofs.«144832_j33964601376969_2_alg».proof.Proof.LibHostDotPlain
import Idealize.ShloMosaic.Lib.StableHlo.Run

noncomputable section

open scoped BigOperators

namespace Cert.KernelIdeal.Whole

open Cert.KernelIdeal Cert.KernelIdeal.Gen Cert.KernelIdeal.Value Cert.KernelIdeal.Body
open Idealize.ShloMosaic Idealize.ShloMosaic.TcCoe Idealize.SL.Sem Idealize.ShloMosaic.ValueIdx Cert.Spec
open Idealize.ShloMosaic.Pipeline (Dat)

/-! ## The projected tags as the host computes them -/

/-- The host operations before the call: the tag embeddings times the transposed tag weights, plus the bias. -/
def tagsHost (x0 : FVec Ideal S512x768 .f32) (x2 : FVec Ideal S128x768 .f32) (x3 : FVec Ideal S128 .f32) : FVec Ideal S512x128 .f32 :=
  addf (Host.dotGeneral (F := Ideal) dot_S512x768_S768x128_S512x128_1_0_0_1_n_n (some .fp32) x0
      (transpose S768x128 [1, 0] x2 transposes_S128x768_S768x128_1_0))
    (broadcastInDim S512x128 ![0, 1] bcast_S1x128_S512x128_0_1 (broadcastInDim S1x128 ![1] bcast_S128_S1x128_1 x3))

/-- Entry by entry they are the specification's projected tags. -/
theorem tagsHost_apply (x0 : FVec Ideal S512x768 .f32) (x2 : FVec Ideal S128x768 .f32) (x3 : FVec Ideal S128 .f32) (j : Fin 512) (k : Fin 128) :
    tagsHost x0 x2 x3 (ix2 j k) = tagsProj x0 x2 x3 j k := by
  unfold tagsHost tagsProj proj
  rw [addf_apply]
  refine congrArg₂ (fun a b : EReal => a + b) ?_ ?_
  · refine (HostDotPlain.dotGeneral_apply (M := 512) (K := 768) (N := 128) (some .fp32) _ _ (ix2 j k)).trans ?_
    refine Finset.sum_congr rfl fun c _ => ?_
    refine congrArg₂ (fun a b : EReal => a * b) rfl ?_
    exact transpose_apply [1, 0] _ _ (ix2 c k) (ix2 k c) (fun b => match b with | ⟨0, _⟩ => rfl | ⟨1, _⟩ => rfl)
  · refine (broadcastInDim_apply _ bcast_S1x128_S512x128_0_1 _ (ix2 j k) (ix2 (0 : Fin 1) k) (fun a => match a with
      | ⟨0, _⟩ => by show 0 = if (1 : Nat) = 1 then 0 else j.val; rw [if_pos rfl]
      | ⟨1, _⟩ => by show k.val = if (128 : Nat) = 1 then 0 else k.val; rw [if_neg (by decide)])).trans ?_
    exact broadcastInDim_apply _ bcast_S128_S1x128_1 _ (ix2 (0 : Fin 1) k) (ix1 k) (fun a => match a with
      | ⟨0, _⟩ => by show k.val = if (128 : Nat) = 1 then 0 else k.val; rw [if_neg (by decide)])

variable (m : (ℓ : Loc nD τ sig) → Buf (Elt Ideal) ℓ) (ρ : Dev nD → PrngReg)

/-- When the call is entered, the array of projected tags holds the host operations' result. -/
theorem V_tags (c : Dev nD) :
    (V m c main_v4 : S512x128.Idx → EReal)
      = tagsHost (m ((c : Thread nD τ).loc main_arg0)) (m ((c : Thread nD τ).loc main_arg2)) (m ((c : Thread nD τ).loc main_arg3)) := by
  dsimp only [Gen.V, Gen.hostOps0]; after_results; rfl

/-! ## One block -/

theorem hz2 : (![0, 0] : Fin 2 → Nat) = fun _ => 0 := funext fun a => by fin_cases a <;> rfl
theorem hz1 : (![0] : Fin 1 → Nat) = fun _ => 0 := funext fun a => by fin_cases a; rfl

/-- The first store's block, entry by entry, from the four loaded blocks. -/
theorem E4_apply (P0 : FVec Ideal S1024x768 .f32) (P1 : FVec Ideal S128x768 .f32) (P2 : FVec Ideal S128 .f32) (P3 : FVec Ideal S512x128 .f32)
    (p : Fin 1024) (q : Fin 512) :
    E4 (F := Ideal) P0 P1 P2 P3 (ix2 p q)
      = logSoftmax (logit (proj (fun r c => P0 (ix2 r c)) (fun k c => P1 (ix2 k c)) (fun k => P2 (ix1 k)) p) (fun j k => P3 (ix2 j k))) q := by
  have i0 : ix4_0 (ix2 p q) = ix2 p q := funext fun a => by match a with | ⟨0, _⟩ => rfl | ⟨1, _⟩ => rfl
  have i1 : ix4_1 (ix2 p q) = ix1 p := funext fun a => by match a with | ⟨0, _⟩ => rfl
  show k0_pay1 (F := Ideal) P0 P1 P2 P3 (ix4_0 (ix2 p q))
      - Ideal.log (multiReduction .add [1] S1024 (exp (k0_pay1 (F := Ideal) P0 P1 P2 P3)) 0x00000000#32 reduces_S1024x512_S1024 (.inl rfl) rfl (ix4_1 (ix2 p q))) = _
  rw [i0, i1]
  unfold logSoftmax sumExp
  refine congrArg₂ (fun a b : EReal => a - b) (pay1_apply P0 P1 P2 P3 p q) (congrArg Ideal.log ?_)
  exact (sumExpV_apply _ p).trans (Finset.sum_congr rfl fun q' _ => congrArg Ideal.exp (pay1_apply P0 P1 P2 P3 p q'))

/-- The second store's block, entry by entry, from the four loaded blocks. -/
theorem E5_apply (P0 : FVec Ideal S1024x768 .f32) (P1 : FVec Ideal S128x768 .f32) (P2 : FVec Ideal S128 .f32) (P3 : FVec Ideal S512x128 .f32)
    (p : Fin 1024) (q : Fin 512) :
    E5 (F := Ideal) P0 P1 P2 P3 (ix2 p q)
      = softmax (logit (proj (fun r c => P0 (ix2 r c)) (fun k c => P1 (ix2 k c)) (fun k => P2 (ix1 k)) p) (fun j k => P3 (ix2 j k))) q := by
  have i0 : ix5_0 (ix2 p q) = ix2 p q := funext fun a => by match a with | ⟨0, _⟩ => rfl | ⟨1, _⟩ => rfl
  have i1 : ix5_1 (ix2 p q) = ix1 p := funext fun a => by match a with | ⟨0, _⟩ => rfl
  show Ideal.div (Ideal.exp (k0_pay1 (F := Ideal) P0 P1 P2 P3 (ix5_0 (ix2 p q))))
      (multiReduction .add [1] S1024 (exp (k0_pay1 (F := Ideal) P0 P1 P2 P3)) 0x00000000#32 reduces_S1024x512_S1024 (.inl rfl) rfl (ix5_1 (ix2 p q))) = _
  rw [i0, i1]
  unfold softmax sumExp
  refine congrArg₂ Ideal.div (congrArg Ideal.exp (pay1_apply P0 P1 P2 P3 p q)) ?_
  exact (sumExpV_apply _ p).trans (Finset.sum_congr rfl fun q' _ => congrArg Ideal.exp (pay1_apply P0 P1 P2 P3 p q'))

/-- What the body leaves in the first result's buffer, entry by entry, from the four staged blocks. -/
theorem out4_apply (x0 : FVec Ideal S512x128 .f32) (x1 : FVec Ideal S1024x768 .f32) (x2 : FVec Ideal S128x768 .f32) (x3 : FVec Ideal S128 .f32)
    (p : Fin 1024) (q : Fin 512) :
    out0_4 (F := Ideal) x0 x1 x2 x3 (ix2 p q)
      = logSoftmax (logit (proj (fun r c => x1 (ix2 r c)) (fun k c => x2 (ix2 k c)) (fun k => x3 (ix1 k)) p) (fun j k => x0 (ix2 j k))) q := by
  unfold out0_4
  rw [canon4_eq, View.ld_unit_zero (S := S1024x768) hz2, View.ld_unit_zero (S := S128x768) hz2, View.ld_unit_zero (S := S128) hz1,
    View.ld_unit_zero (S := S512x128) hz2]
  exact E4_apply x1 x2 x3 x0 p q

/-- What the body leaves in the second result's buffer, entry by entry, from the four staged blocks. -/
theorem out5_apply (x0 : FVec Ideal S512x128 .f32) (x1 : FVec Ideal S1024x768 .f32) (x2 : FVec Ideal S128x768 .f32) (x3 : FVec Ideal S128 .f32)
    (p : Fin 1024) (q : Fin 512) :
    out0_5 (F := Ideal) x0 x1 x2 x3 (ix2 p q)
      = softmax (logit (proj (fun r c => x1 (ix2 r c)) (fun k c => x2 (ix2 k c)) (fun k => x3 (ix1 k)) p) (fun j k => x0 (ix2 j k))) q := by
  unfold out0_5
  rw [canon5_eq, View.ld_unit_zero (S := S1024x768) hz2, View.ld_unit_zero (S := S128x768) hz2, View.ld_unit_zero (S := S128) hz1,
    View.ld_unit_zero (S := S512x128) hz2]
  exact E5_apply x1 x2 x3 x0 p q

/-! ## Which rows a grid point stages -/

/-- The printed index maps over the 256 grid points: the word embeddings and both results move one block of rows per
    point; the weights, the bias and the projected tags stay at block 0. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The staged block of word embeddings at point `t` is rows `1024 t + p` of the argument. -/
theorem iblk1_apply (c : Dev nD) (t : Fin cfg0.N) (p : Fin 1024) (b : Fin 768) (r : Fin 262144) (hr : r.val = t.val * 1024 + p.val) :
    iblk m c 1 t (ix2 p b) = m ((c : Thread nD τ).loc main_arg1) (ix2 r b) := by
  obtain ⟨-, -, e2, e3, -⟩ := idx_facts t
  show V m c main_arg1 (((cfg0.win 1).blk t).view.emb (ix2 p b)) = _
  refine (congrFun (V_main_arg1 m c) _).trans (congrArg _ (funext fun a => Fin.ext ?_))
  match a with
  | ⟨0, _⟩ => show win0_1.index t (0 : Fin 2) * 1024 + 1 * p.val = r.val; omega
  | ⟨1, _⟩ => show win0_1.index t (1 : Fin 2) * 768 + 1 * b.val = b.val; omega

/-- The staged word weights are the whole argument. -/
theorem iblk2_apply (c : Dev nD) (t : Fin cfg0.N) (k : Fin 128) (b : Fin 768) :
    iblk m c 2 t (ix2 k b) = m ((c : Thread nD τ).loc main_arg4) (ix2 k b) := by
  obtain ⟨-, -, -, -, e4, e5, -⟩ := idx_facts t
  show V m c main_arg4 (((cfg0.win 2).blk t).view.emb (ix2 k b)) = _
  refine (congrFun (V_main_arg4 m c) _).trans (congrArg _ (funext fun a => Fin.ext ?_))
  match a with
  | ⟨0, _⟩ => show win0_2.index t (0 : Fin 2) * 128 + 1 * k.val = k.val; omega
  | ⟨1, _⟩ => show win0_2.index t (1 : Fin 2) * 768 + 1 * b.val = b.val; omega

/-- The staged word bias is the whole argument. -/
theorem iblk3_apply (c : Dev nD) (t : Fin cfg0.N) (k : Fin 128) :
    iblk m c 3 t (ix1 k) = m ((c : Thread nD τ).loc main_arg5) (ix1 k) := by
  obtain ⟨-, -, -, -, -, -, e6, -⟩ := idx_facts t
  show V m c main_arg5 (((cfg0.win 3).blk t).view.emb (ix1 k)) = _
  refine (congrFun (V_main_arg5 m c) _).trans (congrArg _ (funext fun a => Fin.ext ?_))
  match a with
  | ⟨0, _⟩ => show win0_3.index t (0 : Fin 1) * 128 + 1 * k.val = k.val; omega

/-- The staged projected tags are the host operations' whole result. -/
theorem iblk0_apply (c : Dev nD) (t : Fin cfg0.N) (j : Fin 512) (k : Fin 128) :
    iblk m c 0 t (ix2 j k)
      = tagsProj (m ((c : Thread nD τ).loc main_arg0)) (m ((c : Thread nD τ).loc main_arg2)) (m ((c : Thread nD τ).loc main_arg3)) j k := by
  obtain ⟨e0, e1, -⟩ := idx_facts t
  show V m c main_v4 (((cfg0.win 0).blk t).view.emb (ix2 j k)) = _
  refine (congrFun (V_tags m c) _).trans ?_
  refine (congrArg _ (funext fun a => Fin.ext ?_)).trans (tagsHost_apply _ _ _ j k)
  match a with
  | ⟨0, _⟩ => show win0_0.index t (0 : Fin 2) * 512 + 1 * j.val = j.val; omega
  | ⟨1, _⟩ => show win0_0.index t (1 : Fin 2) * 128 + 1 * k.val = k.val; omega

/-- The logits the body forms for the block's word `p` at point `t` are the logits of word `1024 t + p`. -/
theorem blockLogits_eq (c : Dev nD) (t : Fin cfg0.N) (p : Fin 1024) (r : Fin 262144) (hr : r.val = t.val * 1024 + p.val) :
    logit (proj (fun r b => iblk m c 1 t (ix2 r b)) (fun k b => iblk m c 2 t (ix2 k b)) (fun k => iblk m c 3 t (ix1 k)) p)
        (fun j k => iblk m c 0 t (ix2 j k))
      = wordLogits (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) r := by
  unfold wordLogits
  refine congrArg₂ logit (funext fun k => ?_) (funext fun j => funext fun k => iblk0_apply m c t j k)
  unfold proj
  refine congrArg₂ (fun a b : EReal => a + b) (Finset.sum_congr rfl fun b _ => ?_) (iblk3_apply m c t k)
  exact congrArg₂ (fun a b : EReal => a * b) (iblk1_apply m c t p b r hr) (iblk2_apply m c t k b)

/-! ## The two results -/

/-- The first result as one function of the arguments. -/
abbrev G4 (c : Dev nD) : S262144x512.Idx → EReal :=
  logProbs (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The second result as one function of the arguments. -/
abbrev G5 (c : Dev nD) : S262144x512.Idx → EReal :=
  probs (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- What point `t` writes back to the first result is block `t` of `G4`. -/
theorem flushed4_eq (c : Dev nD) (t : Fin cfg0.N) :
    (dats m 0 c).flushed 4 t = ((cfg0.win 4).blk t).view.read (Elt Ideal) (G4 m c) := by
  obtain ⟨-, -, -, -, -, -, -, e7, e8, -⟩ := idx_facts t
  have hN : t.val < 256 := by have h := t.isLt; have e : cfg0.N = 256 := N_0; omega
  rw [flushed4]
  funext y
  obtain ⟨p, q, rfl⟩ : ∃ (p : Fin 1024) (q : Fin 512), y = ix2 p q := ⟨y 0, y 1, eq_ix2 y⟩
  show out0_4 (iblk m c 0 t) (iblk m c 1 t) (iblk m c 2 t) (iblk m c 3 t) (ix2 p q) = G4 m c (((cfg0.win 4).blk t).view.emb (ix2 p q))
  refine (out4_apply _ _ _ _ p q).trans ?_
  have hr : t.val * 1024 + p.val < 262144 := by have := p.isLt; omega
  rw [blockLogits_eq m c t p ⟨t.val * 1024 + p.val, hr⟩ rfl]
  show _ = logSoftmax (wordLogits _ _ _ _ _ _ ⟨((((cfg0.win 4).blk t).view.emb (ix2 p q)) 0).val, _⟩) ⟨((((cfg0.win 4).blk t).view.emb (ix2 p q)) 1).val, _⟩
  refine congrArg₂ (fun r q' => logSoftmax (wordLogits _ _ _ _ _ _ r) q') (Fin.ext ?_) (Fin.ext ?_)
  · show t.val * 1024 + p.val = win0_4.index t (0 : Fin 2) * 1024 + 1 * p.val; omega
  · show q.val = win0_4.index t (1 : Fin 2) * 512 + 1 * q.val; omega

/-- What point `t` writes back to the second result is block `t` of `G5`. -/
theorem flushed5_eq (c : Dev nD) (t : Fin cfg0.N) :
    (dats m 0 c).flushed 5 t = ((cfg0.win 5).blk t).view.read (Elt Ideal) (G5 m c) := by
  obtain ⟨-, -, -, -, -, -, -, -, -, e9, e10⟩ := idx_facts t
  rw [flushed5]
  funext y
  obtain ⟨p, q, rfl⟩ : ∃ (p : Fin 1024) (q : Fin 512), y = ix2 p q := ⟨y 0, y 1, eq_ix2 y⟩
  show out0_5 (iblk m c 0 t) (iblk m c 1 t) (iblk m c 2 t) (iblk m c 3 t) (ix2 p q) = G5 m c (((cfg0.win 5).blk t).view.emb (ix2 p q))
  refine (out5_apply _ _ _ _ p q).trans ?_
  have hN : t.val < 256 := by have h := t.isLt; have e : cfg0.N = 256 := N_0; omega
  have hr : t.val * 1024 + p.val < 262144 := by have := p.isLt; omega
  rw [blockLogits_eq m c t p ⟨t.val * 1024 + p.val, hr⟩ rfl]
  show _ = softmax (wordLogits _ _ _ _ _ _ ⟨((((cfg0.win 5).blk t).view.emb (ix2 p q)) 0).val, _⟩) ⟨((((cfg0.win 5).blk t).view.emb (ix2 p q)) 1).val, _⟩
  refine congrArg₂ (fun r q' => softmax (wordLogits _ _ _ _ _ _ r) q') (Fin.ext ?_) (Fin.ext ?_)
  · show t.val * 1024 + p.val = win0_5.index t (0 : Fin 2) * 1024 + 1 * p.val; omega
  · show q.val = win0_5.index t (1 : Fin 2) * 512 + 1 * q.val; omega

/-- An index of the first result is in point `t`'s block iff each coordinate is in the block's range. -/
theorem mem_blk4 (t : Fin cfg0.N) (i : S262144x512.Idx) :
    i ∈ ((cfg0.win 4).blk t).view.set ↔ ∀ a : Fin 2, win0_4.index t a * S1024x512.size a ≤ (i a).val ∧ (i a).val < win0_4.index t a * S1024x512.size a + S1024x512.size a := by
  show i ∈ ((View.whole main_v5_0).slice (win0_4.rect t)).set ↔ _
  rw [View.set_slice_whole, Rect.mem_set_unit]
  exact Iff.rfl

/-- The same for the second result. -/
theorem mem_blk5 (t : Fin cfg0.N) (i : S262144x512.Idx) :
    i ∈ ((cfg0.win 5).blk t).view.set ↔ ∀ a : Fin 2, win0_5.index t a * S1024x512.size a ≤ (i a).val ∧ (i a).val < win0_5.index t a * S1024x512.size a + S1024x512.size a := by
  show i ∈ ((View.whole main_v5_1).slice (win0_5.rect t)).set ↔ _
  rw [View.set_slice_whole, Rect.mem_set_unit]
  exact Iff.rfl

/-- Row `r` lies in the block of point `r / 1024`: the 256 blocks tile the first result. -/
theorem cover4 (i : S262144x512.Idx) : ∃ t : Fin cfg0.N, (cfg0.win 4).flush t = true ∧ i ∈ ((cfg0.win 4).blk t).view.set := by
  have h0 : (i 0).val < 262144 := (i 0).isLt
  have h1 : (i 1).val < 512 := (i 1).isLt
  have hlt : (i 0).val / 1024 < cfg0.N := by rw [show cfg0.N = 256 from N_0]; omega
  obtain ⟨-, -, -, -, -, -, -, e7, e8, -⟩ := idx_facts ⟨(i 0).val / 1024, hlt⟩
  refine ⟨⟨(i 0).val / 1024, hlt⟩, flush0_4 _, ?_⟩
  rw [mem_blk4]
  intro a
  match a with
  | ⟨0, _⟩ =>
    show win0_4.index ⟨(i 0).val / 1024, hlt⟩ (0 : Fin 2) * 1024 ≤ (i 0).val ∧ (i 0).val < win0_4.index ⟨(i 0).val / 1024, hlt⟩ (0 : Fin 2) * 1024 + 1024
    rw [e7]; show (i 0).val / 1024 * 1024 ≤ (i 0).val ∧ (i 0).val < (i 0).val / 1024 * 1024 + 1024; omega
  | ⟨1, _⟩ =>
    show win0_4.index ⟨(i 0).val / 1024, hlt⟩ (1 : Fin 2) * 512 ≤ (i 1).val ∧ (i 1).val < win0_4.index ⟨(i 0).val / 1024, hlt⟩ (1 : Fin 2) * 512 + 512
    rw [e8]; omega

/-- The same for the second result. -/
theorem cover5 (i : S262144x512.Idx) : ∃ t : Fin cfg0.N, (cfg0.win 5).flush t = true ∧ i ∈ ((cfg0.win 5).blk t).view.set := by
  have h0 : (i 0).val < 262144 := (i 0).isLt
  have h1 : (i 1).val < 512 := (i 1).isLt
  have hlt : (i 0).val / 1024 < cfg0.N := by rw [show cfg0.N = 256 from N_0]; omega
  obtain ⟨-, -, -, -, -, -, -, -, -, e9, e10⟩ := idx_facts ⟨(i 0).val / 1024, hlt⟩
  refine ⟨⟨(i 0).val / 1024, hlt⟩, flush0_5 _, ?_⟩
  rw [mem_blk5]
  intro a
  match a with
  | ⟨0, _⟩ =>
    show win0_5.index ⟨(i 0).val / 1024, hlt⟩ (0 : Fin 2) * 1024 ≤ (i 0).val ∧ (i 0).val < win0_5.index ⟨(i 0).val / 1024, hlt⟩ (0 : Fin 2) * 1024 + 1024
    rw [e9]; show (i 0).val / 1024 * 1024 ≤ (i 0).val ∧ (i 0).val < (i 0).val / 1024 * 1024 + 1024; omega
  | ⟨1, _⟩ =>
    show win0_5.index ⟨(i 0).val / 1024, hlt⟩ (1 : Fin 2) * 512 ≤ (i 1).val ∧ (i 1).val < win0_5.index ⟨(i 0).val / 1024, hlt⟩ (1 : Fin 2) * 512 + 512
    rw [e10]; omega

/-- The first result array after the run. -/
theorem final4 (c : Dev nD) : (dats m 0 c).arrAt 4 cfg0.N = G4 m c :=
  (dats m 0 c).arrAt_eq_of_cover 4 (G4 m c) (fun t _ => flushed4_eq m c t) cover4

/-- The second result array after the run. -/
theorem final5 (c : Dev nD) : (dats m 0 c).arrAt 5 cfg0.N = G5 m c :=
  (dats m 0 c).arrAt_eq_of_cover 5 (G5 m c) (fun t _ => flushed5_eq m c t) cover5

/-- The kernel's program runs, and leaves the two specification arrays in its results and its arguments unchanged. -/
theorem run : θ_run defs (onTc (τ := τ) (main (F := Ideal))) ⟨m, fun _ => 0, ρ⟩ fun r => ∀ c : Dev nD,
      r.2.mem ((c : Thread nD τ).loc main_v5_0) = G4 m c
      ∧ r.2.mem ((c : Thread nD τ).loc main_v5_1) = G5 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final4 m c), (h c).2.1.trans (final5 m c), (h c).2.2⟩) (run_blocks m ρ)

end Cert.KernelIdeal.Whole

end
-- ==== Proof.RefRun.lean ====
/-
  The reference's run, read in two stretches.

  The reference's 57 host operations are a straight line: the first 28 compute the logits from the six arguments, the
  remaining 29 are the log-softmax and the softmax of the logits. The buffers after the whole line are those after the
  second stretch run from the buffers the first stretch leaves; the first stretch leaves the logits' stage in the
  logits' buffer, and the second stretch, from any buffers whose logits' buffer holds an array A, leaves the log-softmax
  stage and the softmax stage of A in the two result buffers. Keeping A a variable in the second step keeps the terms
  compared there small. The called log-softmax's operations read and write their buffers through transports along the
  equation between a buffer's type and its value's type, which holds by computation; a transport there and back is the
  identity, and these pairs are removed innermost first.
-/
import proofs.«144832_j33964601376969_2_alg».proof.Proof.ReadP

noncomputable section

namespace Cert.ReferenceIdeal.RefRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-- The buffers after two stretches of operations are those after the second, run from those after the first. -/
theorem after_append' : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_append' l₁ l₂]

/-- The whole line cut after the logits. -/
theorem after_split (W : Valuation τ sig (Elt F)) :
    after (ops (F := F)) W = after ((ops (F := F)).drop 28) (after ((ops (F := F)).take 28) W) := by
  conv_lhs => rw [← List.take_append_drop 28 (ops (F := F))]
  exact after_append' _ _ _

set_option maxRecDepth 8192 in
/-- The first stretch leaves the logits' stage of the arguments in the logits' buffer. -/
theorem logits_eq (W : Valuation τ sig (Elt F)) :
    after ((ops (F := F)).take 28) W (Proc.devRef .tc main_v24) = val_main_v24 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) := by
  simp only [ops, List.take_succ_cons, List.take_zero]
  after_results_simp
  unfold val_main_v24 val_main_v23 val_main_v22 val_main_v21 val_main_cst_1 val_main_v20 val_main_v19 val_main_v18 val_main_v17 val_main_v16
    val_main_v15 val_main_v14 val_main_cst_0 val_main_v13 val_main_v12 val_main_v11 val_main_cst val_main_v10 val_main_v9 val_main_v8 val_main_v7
    val_main_v6 val_main_v5 val_main_v4 val_main_v3 val_main_v2 val_main_v1 val_main_v0
  rfl

set_option maxRecDepth 8192 in
/-- The second stretch, from buffers whose logits' buffer holds the logits' stage, leaves the log-softmax stage in the
    first result's buffer. -/
theorem logSoftmax_eq (W : Valuation τ sig (Elt F)) (x0 : (⟨S512x768, .f32⟩ : BufTy).Contents (Elt F)) (x1 : (⟨S262144x768, .f32⟩ : BufTy).Contents (Elt F)) (x2 : (⟨S128x768, .f32⟩ : BufTy).Contents (Elt F)) (x3 : (⟨S128, .f32⟩ : BufTy).Contents (Elt F)) (x4 : (⟨S128x768, .f32⟩ : BufTy).Contents (Elt F)) (x5 : (⟨S128, .f32⟩ : BufTy).Contents (Elt F))
    (h24 : W (Proc.devRef .tc main_v24) = val_main_v24 (F := F) x0 x1 x2 x3 x4 x5) :
    after ((ops (F := F)).drop 28) W (Proc.devRef .tc main_v25) = val_main_v25 (F := F) x0 x1 x2 x3 x4 x5 := by
  simp only [ops, List.drop_succ_cons, List.drop_zero]
  after_results_simp
  rw [h24]
  unfold val_main_v25 val_main_call0_v10 val_main_call0_v9 val_main_call0_v8 val_main_call0_v7 val_main_call0_cst_1 val_main_call0_v6
    val_main_call0_v5 val_main_call0_v4 val_main_call0_v3 val_main_call0_v2 val_main_call0_v1 val_main_call0_cst_0 val_main_call0_v0 val_main_call0_cst
  generalize val_main_v24 (F := F) x0 x1 x2 x3 x4 x5 = A
  have e24 : (TRef.of (T := ⟨S262144x512, .f32⟩) main_v24).ofBuf (Val := Elt F) A = A := rfl
  have p_main_call0_cst : ∀ v : (⟨S_, .f32⟩ : BufTy).Contents (Elt F), (TRef.of (T := ⟨S_, .f32⟩) main_call0_cst).ofBuf (Val := Elt F) ((TRef.of (T := ⟨S_, .f32⟩) main_call0_cst).toBuf (Val := Elt F) v) = v := fun _ => rfl
  have p_main_call0_cst_0 : ∀ v : (⟨S_, .f32⟩ : BufTy).Contents (Elt F), (TRef.of (T := ⟨S_, .f32⟩) main_call0_cst_0).ofBuf (Val := Elt F) ((TRef.of (T := ⟨S_, .f32⟩) main_call0_cst_0).toBuf (Val := Elt F) v) = v := fun _ => rfl
  have p_main_call0_v0 : ∀ v : (⟨S262144, .f32⟩ : BufTy).Contents (Elt F), (TRef.of (T := ⟨S262144, .f32⟩) main_call0_v0).ofBuf (Val := Elt F) ((TRef.of (T := ⟨S262144, .f32⟩) main_call0_v0).toBuf (Val := Elt F) v) = v := fun _ => rfl
  have p_main_call0_v1 : ∀ v : (⟨S262144, .f32⟩ : BufTy).Contents (Elt F), (TRef.of (T := ⟨S262144, .f32⟩) main_call0_v1).ofBuf (Val := Elt F) ((TRef.of (T := ⟨S262144, .f32⟩) main_call0_v1).toBuf (Val := Elt F) v) = v := fun _ => rfl
  have p_main_call0_v2 : ∀ v : (⟨S262144, .f32⟩ : BufTy).Contents (Elt F), (TRef.of (T := ⟨S262144, .f32⟩) main_call0_v2).ofBuf (Val := Elt F) ((TRef.of (T := ⟨S262144, .f32⟩) main_call0_v2).toBuf (Val := Elt F) v) = v := fun _ => rfl
  have p_main_call0_v3 : ∀ v : (⟨S262144x1, .f32⟩ : BufTy).Contents (Elt F), (TRef.of (T := ⟨S262144x1, .f32⟩) main_call0_v3).ofBuf (Val := Elt F) ((TRef.of (T := ⟨S262144x1, .f32⟩) main_call0_v3).toBuf (Val := Elt F) v) = v := fun _ => rfl
  have p_main_call0_v4 : ∀ v : (⟨S262144x512, .f32⟩ : BufTy).Contents (Elt F), (TRef.of (T := ⟨S262144x512, .f32⟩) main_call0_v4).ofBuf (Val := Elt F) ((TRef.of (T := ⟨S262144x512, .f32⟩) main_call0_v4).toBuf (Val := Elt F) v) = v := fun _ => rfl
  have p_main_call0_v5 : ∀ v : (⟨S262144x512, .f32⟩ : BufTy).Contents (Elt F), (TRef.of (T := ⟨S262144x512, .f32⟩) main_call0_v5).ofBuf (Val := Elt F) ((TRef.of (T := ⟨S262144x512, .f32⟩) main_call0_v5).toBuf (Val := Elt F) v) = v := fun _ => rfl
  have p_main_call0_cst_1 : ∀ v : (⟨S_, .f32⟩ : BufTy).Contents (Elt F), (TRef.of (T := ⟨S_, .f32⟩) main_call0_cst_1).ofBuf (Val := Elt F) ((TRef.of (T := ⟨S_, .f32⟩) main_call0_cst_1).toBuf (Val := Elt F) v) = v := fun _ => rfl
  have p_main_call0_v6 : ∀ v : (⟨S262144x512, .f32⟩ : BufTy).Contents (Elt F), (TRef.of (T := ⟨S262144x512, .f32⟩) main_call0_v6).ofBuf (Val := Elt F) ((TRef.of (T := ⟨S262144x512, .f32⟩) main_call0_v6).toBuf (Val := Elt F) v) = v := fun _ => rfl
  have p_main_call0_v7 : ∀ v : (⟨S262144, .f32⟩ : BufTy).Contents (Elt F), (TRef.of (T := ⟨S262144, .f32⟩) main_call0_v7).ofBuf (Val := Elt F) ((TRef.of (T := ⟨S262144, .f32⟩) main_call0_v7).toBuf (Val := Elt F) v) = v := fun _ => rfl
  have p_main_call0_v8 : ∀ v : (⟨S262144x1, .f32⟩ : BufTy).Contents (Elt F), (TRef.of (T := ⟨S262144x1, .f32⟩) main_call0_v8).ofBuf (Val := Elt F) ((TRef.of (T := ⟨S262144x1, .f32⟩) main_call0_v8).toBuf (Val := Elt F) v) = v := fun _ => rfl
  have p_main_call0_v9 : ∀ v : (⟨S262144x1, .f32⟩ : BufTy).Contents (Elt F), (TRef.of (T := ⟨S262144x1, .f32⟩) main_call0_v9).ofBuf (Val := Elt F) ((TRef.of (T := ⟨S262144x1, .f32⟩) main_call0_v9).toBuf (Val := Elt F) v) = v := fun _ => rfl
  have p_main_call0_v10 : ∀ v : (⟨S262144x512, .f32⟩ : BufTy).Contents (Elt F), (TRef.of (T := ⟨S262144x512, .f32⟩) main_call0_v10).ofBuf (Val := Elt F) ((TRef.of (T := ⟨S262144x512, .f32⟩) main_call0_v10).toBuf (Val := Elt F) v) = v := fun _ => rfl
  repeat (first | rw [e24] | rw [p_main_call0_cst] | rw [p_main_call0_cst_0] | rw [p_main_call0_v0] | rw [p_main_call0_v1] | rw [p_main_call0_v2] | rw [p_main_call0_v3] | rw [p_main_call0_v4] | rw [p_main_call0_v5] | rw [p_main_call0_cst_1] | rw [p_main_call0_v6] | rw [p_main_call0_v7] | rw [p_main_call0_v8] | rw [p_main_call0_v9] | rw [p_main_call0_v10])
  rfl

set_option maxRecDepth 8192 in
/-- The second stretch likewise leaves the softmax stage in the second result's buffer. -/
theorem softmax_eq (W : Valuation τ sig (Elt F)) (x0 : (⟨S512x768, .f32⟩ : BufTy).Contents (Elt F)) (x1 : (⟨S262144x768, .f32⟩ : BufTy).Contents (Elt F)) (x2 : (⟨S128x768, .f32⟩ : BufTy).Contents (Elt F)) (x3 : (⟨S128, .f32⟩ : BufTy).Contents (Elt F)) (x4 : (⟨S128x768, .f32⟩ : BufTy).Contents (Elt F)) (x5 : (⟨S128, .f32⟩ : BufTy).Contents (Elt F))
    (h24 : W (Proc.devRef .tc main_v24) = val_main_v24 (F := F) x0 x1 x2 x3 x4 x5) :
    after ((ops (F := F)).drop 28) W (Proc.devRef .tc main_v36) = val_main_v36 (F := F) x0 x1 x2 x3 x4 x5 := by
  simp only [ops, List.drop_succ_cons, List.drop_zero]
  after_results_simp
  rw [h24]
  unfold val_main_v36 val_main_v35 val_main_v34 val_main_v33 val_main_cst_4 val_main_v32 val_main_v31 val_main_v30 val_main_v29 val_main_v28
    val_main_v27 val_main_cst_3 val_main_v26 val_main_cst_2
  generalize val_main_v24 (F := F) x0 x1 x2 x3 x4 x5 = A
  rfl

/-- The first result after the whole line: the log-softmax stage of the arguments. -/
theorem res25 (W : Valuation τ sig (Elt F)) :
    after (ops (F := F)) W (Proc.devRef .tc main_v25) = val_main_v25 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) := by
  rw [after_split]
  exact logSoftmax_eq _ _ _ _ _ _ _ (logits_eq W)

/-- The second result after the whole line: the softmax stage of the arguments. -/
theorem res36 (W : Valuation τ sig (Elt F)) :
    after (ops (F := F)) W (Proc.devRef .tc main_v36) = val_main_v36 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) := by
  rw [after_split]
  exact softmax_eq _ _ _ _ _ _ _ (logits_eq W)

set_option maxRecDepth 8192 in
/-- On every device, for any float values, from any memory with zero counters: every weakly fair execution of the
    reference terminates with the two results at their stages of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v25) = val_main_v25 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v36) = val_main_v36 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v25).trans (res25 (launchContents m c)),
      (h c main_v36).trans (res36 (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_after m ρ)

end Cert.ReferenceIdeal.RefRun

end
-- ==== Proof.RefValue.lean ====
/-
  The reference, read entry by entry over the extended reals, is the specification on finite inputs.

  The reference projects the tags and the words (a matrix product with the transposed weights, plus the bias), forms
  the negated distance -((|w|^2 + |t|^2) - 2 (w . t)) with each squared norm summed from a literal zero, and applies
  the library's log-softmax and softmax, which take the row maximum once more against minus infinity before
  subtracting it. The extra maximum and the literal zeros change nothing; the negated distance is the expanded logit
  when the projections are finite, which they are when the six inputs are.
-/
import proofs.«144832_j33964601376969_2_alg».proof.Proof.ReadP
import proofs.«144832_j33964601376969_2_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx Cert.Spec Cert.LibFinite

variable (x0 : (⟨S512x768, .f32⟩ : BufTy).Contents (Elt Ideal)) (x1 : (⟨S262144x768, .f32⟩ : BufTy).Contents (Elt Ideal)) (x2 : (⟨S128x768, .f32⟩ : BufTy).Contents (Elt Ideal)) (x3 : (⟨S128, .f32⟩ : BufTy).Contents (Elt Ideal)) (x4 : (⟨S128x768, .f32⟩ : BufTy).Contents (Elt Ideal)) (x5 : (⟨S128, .f32⟩ : BufTy).Contents (Elt Ideal))

/-! ## The projections -/

/-- The reference's projected tags, entry by entry. -/
theorem v4_apply (j : Fin 512) (k : Fin 128) :
    val_main_v4 (F := Ideal) x0 x2 x3 (ix2 j k) = tagsProj x0 x2 x3 j k := by
  have hl : ∀ c : Fin 768, lidx_main_v1 (ix2 j k) c = ix2 j c := fun c => funext fun a => by
    match a with | ⟨0, _⟩ => rfl | ⟨1, _⟩ => rfl
  have hr : ∀ c : Fin 768, idx_main_v0 (ridx_main_v1 (ix2 j k) c) = ix2 k c := fun c => funext fun a => by
    match a with | ⟨0, _⟩ => rfl | ⟨1, _⟩ => rfl
  have hb : idx_main_v2 (idx_main_v3 (ix2 j k)) = ix1 k := funext fun a => by
    match a with | ⟨0, _⟩ => rfl
  rw [val_main_v4_apply, val_main_v1_apply, val_main_v3_apply, val_main_v2_apply, hb, Ideal.addf_def]
  unfold tagsProj proj
  refine congrArg₂ (fun a b : EReal => a + b) (Finset.sum_congr rfl fun c _ => ?_) rfl
  rw [val_main_v0_apply, hl, hr]

/-- The reference's projected words, entry by entry. -/
theorem v9_apply (r : Fin 262144) (k : Fin 128) :
    val_main_v9 (F := Ideal) x1 x4 x5 (ix2 r k) = proj (fun r c => x1 (ix2 r c)) (fun k c => x4 (ix2 k c)) (fun k => x5 (ix1 k)) r k := by
  have hl : ∀ c : Fin 768, lidx_main_v6 (ix2 r k) c = ix2 r c := fun c => funext fun a => by
    match a with | ⟨0, _⟩ => rfl | ⟨1, _⟩ => rfl
  have hr : ∀ c : Fin 768, idx_main_v5 (ridx_main_v6 (ix2 r k) c) = ix2 k c := fun c => funext fun a => by
    match a with | ⟨0, _⟩ => rfl | ⟨1, _⟩ => rfl
  have hb : idx_main_v7 (idx_main_v8 (ix2 r k)) = ix1 k := funext fun a => by
    match a with | ⟨0, _⟩ => rfl
  rw [val_main_v9_apply, val_main_v6_apply, val_main_v8_apply, val_main_v7_apply, hb, Ideal.addf_def]
  unfold proj
  refine congrArg₂ (fun a b : EReal => a + b) (Finset.sum_congr rfl fun c _ => ?_) rfl
  rw [val_main_v5_apply, hl, hr]

/-! ## The negated distances -/

/-- The reference's logits, entry by entry, from its projected words and tags. -/
theorem v24_apply (r : Fin 262144) (j : Fin 512) :
    val_main_v24 (F := Ideal) x0 x1 x2 x3 x4 x5 (ix2 r j)
      = logitNeg (fun k => val_main_v9 (F := Ideal) x1 x4 x5 (ix2 r k)) (fun j k => val_main_v4 (F := Ideal) x0 x2 x3 (ix2 j k)) j := by
  have h11 : ∀ k : Fin 128, idx_main_v11 (idx_main_v12 (idx_main_v16 (ix2 r j))) k = ix2 r k := fun k => funext fun a => by
    match a with | ⟨0, _⟩ => rfl | ⟨1, _⟩ => rfl
  have h14 : ∀ k : Fin 128, idx_main_v14 (idx_main_v15 (idx_main_v17 (ix2 r j))) k = ix2 j k := fun k => funext fun a => by
    match a with | ⟨0, _⟩ => rfl | ⟨1, _⟩ => rfl
  have h20l : ∀ k : Fin 128, lidx_main_v20 (ix2 r j) k = ix2 r k := fun k => funext fun a => by
    match a with | ⟨0, _⟩ => rfl | ⟨1, _⟩ => rfl
  have h20r : ∀ k : Fin 128, idx_main_v19 (ridx_main_v20 (ix2 r j) k) = ix2 j k := fun k => funext fun a => by
    match a with | ⟨0, _⟩ => rfl | ⟨1, _⟩ => rfl
  rw [val_main_v24_apply, val_main_v23_apply, val_main_v18_apply, val_main_v22_apply, val_main_v16_apply, val_main_v12_apply,
    val_main_v11_apply, val_main_v17_apply, val_main_v15_apply, val_main_v14_apply, val_main_v20_apply, val_main_v21_apply]
  unfold logitNeg
  show -(((Ideal.ofBits .f32 0x00000000#32 + ∑ k : Fin 128, val_main_v10 (F := Ideal) x1 x4 x5 (idx_main_v11 (idx_main_v12 (idx_main_v16 (ix2 r j))) k))
        + (Ideal.ofBits .f32 0x00000000#32 + ∑ k : Fin 128, val_main_v13 (F := Ideal) x0 x2 x3 (idx_main_v14 (idx_main_v15 (idx_main_v17 (ix2 r j))) k)))
      - Ideal.ofBits .f32 0x40000000#32 * ∑ k : Fin 128, val_main_v9 (F := Ideal) x1 x4 x5 (lidx_main_v20 (ix2 r j) k) * val_main_v19 (F := Ideal) x0 x2 x3 (ridx_main_v20 (ix2 r j) k)) = _
  refine congrArg Neg.neg (congrArg₂ (fun a b : EReal => a - b) (congrArg₂ (fun a b : EReal => a + b) (congrArg _ ?_) (congrArg _ ?_)) (congrArg _ ?_))
  · exact Finset.sum_congr rfl fun k _ => by rw [h11]; rfl
  · exact Finset.sum_congr rfl fun k _ => by rw [h14]; rfl
  · exact Finset.sum_congr rfl fun k _ => by rw [h20l, val_main_v19_apply, h20r]

/-- On finite inputs the reference's logits of word `r` are the specification's. -/
theorem v24_row (r : Fin 262144)
    (h0 : ∀ i, IsFin (x0 i)) (h1 : ∀ i, IsFin (x1 i)) (h2 : ∀ i, IsFin (x2 i)) (h3 : ∀ i, IsFin (x3 i)) (h4 : ∀ i, IsFin (x4 i)) (h5 : ∀ i, IsFin (x5 i)) :
    (fun j : Fin 512 => val_main_v24 (F := Ideal) x0 x1 x2 x3 x4 x5 (ix2 r j)) = wordLogits x0 x1 x2 x3 x4 x5 r := by
  funext j
  have hw : (fun k : Fin 128 => val_main_v9 (F := Ideal) x1 x4 x5 (ix2 r k))
      = proj (fun r c => x1 (ix2 r c)) (fun k c => x4 (ix2 k c)) (fun k => x5 (ix1 k)) r := funext fun k => v9_apply x1 x4 x5 r k
  have ht : (fun (j : Fin 512) (k : Fin 128) => val_main_v4 (F := Ideal) x0 x2 x3 (ix2 j k)) = tagsProj x0 x2 x3 :=
    funext fun j => funext fun k => v4_apply x0 x2 x3 j k
  rw [v24_apply, hw, ht]
  unfold wordLogits
  exact logitNeg_eq _ _ j (fun k => proj_fin (fun _ _ => h1 _) (fun _ _ => h4 _) (fun _ => h5 _) r k)
    (fun k => proj_fin (fun _ _ => h0 _) (fun _ _ => h2 _) (fun _ => h3 _) j k)

/-! ## The log-softmax -/

/-- In a [262144, 512] array the entries that reduce to row `r` are `(r, j)`. -/
theorem lift_row (h : S262144x512.Reduces [1] S262144) (r : Fin 262144) (j : Fin 512) : h.lift (ix1 r) j = ix2 r j := by
  funext a; apply Fin.ext; match a with | ⟨0, _⟩ => rfl | ⟨1, _⟩ => rfl

/-- A row maximum of the host, entry by entry, for any array and the literal minus infinity it starts from. -/
theorem hostRowMax (A : S262144x512.Idx → EReal) (r : Fin 262144) :
    Host.reduce (FloatOps.maximumf (F := Ideal) (φ := .f32)) A (constant (F := Ideal) S_ .f32 0xFF800000#32) reducesTo_S262144x512_S262144_d1 h_S_ (ix1 r)
      = rowMax (fun j => A (ix2 r j)) := by
  have hR : S262144x512.Reduces [1] S262144 := by decide
  refine (Host.reduce_eq_fold_single (FloatOps.maximumf (F := Ideal) (φ := .f32)) A _ reducesTo_S262144x512_S262144_d1 hR h_S_ (ix1 r)).trans ?_
  exact congrArg (fun f : Fin 512 → EReal => Finset.fold max negInf f Finset.univ)
    (funext fun j => congrArg A (lift_row hR r j) : (A ∘ hR.lift (ix1 r)) = fun j : Fin 512 => A (ix2 r j))

/-- The maximum the log-softmax subtracts from row `r`. -/
theorem call0_v2_apply (r : Fin 262144) :
    val_main_call0_v2 (F := Ideal) x0 x1 x2 x3 x4 x5 (ix1 r) = rowMax (fun j => val_main_v24 (F := Ideal) x0 x1 x2 x3 x4 x5 (ix2 r j)) := by
  rw [val_main_call0_v2_apply, val_main_call0_v1_apply, val_main_call0_cst_0_apply, Ideal.maximumf_def]
  have e : val_main_call0_v0 (F := Ideal) x0 x1 x2 x3 x4 x5 (ix1 r) = rowMax (fun j => val_main_v24 (F := Ideal) x0 x1 x2 x3 x4 x5 (ix2 r j)) := by
    unfold val_main_call0_v0 val_main_call0_cst
    exact hostRowMax _ r
  rw [e]
  exact max_negInf_rowMax _

/-- The shifted logits of the log-softmax, entry by entry. -/
theorem call0_v5_apply (r : Fin 262144) (j : Fin 512) :
    val_main_call0_v5 (F := Ideal) x0 x1 x2 x3 x4 x5 (ix2 r j)
      = val_main_v24 (F := Ideal) x0 x1 x2 x3 x4 x5 (ix2 r j) - rowMax (fun j => val_main_v24 (F := Ideal) x0 x1 x2 x3 x4 x5 (ix2 r j)) := by
  have hi : idx_main_call0_v3 (idx_main_call0_v4 (ix2 r j)) = ix1 r := funext fun a => by match a with | ⟨0, _⟩ => rfl
  rw [val_main_call0_v5_apply, val_main_call0_v4_apply, val_main_call0_v3_apply, hi, call0_v2_apply, Ideal.subf_def]

/-- The first result of the reference, entry by entry: the log-softmax of the row of logits. -/
theorem v25_apply (r : Fin 262144) (j : Fin 512) :
    val_main_v25 (F := Ideal) x0 x1 x2 x3 x4 x5 (ix2 r j) = logSoftmax (fun j => val_main_v24 (F := Ideal) x0 x1 x2 x3 x4 x5 (ix2 r j)) j := by
  have hi : idx_main_call0_v8 (idx_main_call0_v10 (ix2 r j)) = ix1 r := funext fun a => by match a with | ⟨0, _⟩ => rfl
  have h7 : ∀ k : Fin 512, idx_main_call0_v7 (ix1 r) k = ix2 r k := fun k => funext fun a => by
    match a with | ⟨0, _⟩ => rfl | ⟨1, _⟩ => rfl
  rw [val_main_v25_apply, val_main_call0_v10_apply, val_main_call0_v9_apply, val_main_call0_v8_apply, hi, val_main_call0_v7_apply,
    call0_v5_apply, Ideal.subf_def, Ideal.hostUnary_log_def]
  unfold logSoftmax sumExp
  refine congrArg₂ (fun a b : EReal => a - b) rfl (congrArg Ideal.log ?_)
  show Ideal.ofBits .f32 0x00000000#32 + _ = _
  rw [Ideal.ofBits_zero_f32, zero_add]
  refine Finset.sum_congr rfl fun k _ => ?_
  rw [h7, val_main_call0_v6_apply, call0_v5_apply, Ideal.hostUnary_exp_def]

/-! ## The softmax -/

/-- The maximum the softmax subtracts from row `r`. -/
theorem v28_apply (r : Fin 262144) :
    val_main_v28 (F := Ideal) x0 x1 x2 x3 x4 x5 (ix1 r) = rowMax (fun j => val_main_v24 (F := Ideal) x0 x1 x2 x3 x4 x5 (ix2 r j)) := by
  rw [val_main_v28_apply, val_main_v27_apply, val_main_cst_3_apply, Ideal.maximumf_def]
  have e : val_main_v26 (F := Ideal) x0 x1 x2 x3 x4 x5 (ix1 r) = rowMax (fun j => val_main_v24 (F := Ideal) x0 x1 x2 x3 x4 x5 (ix2 r j)) := by
    unfold val_main_v26 val_main_cst_2
    exact hostRowMax _ r
  rw [e]
  exact max_negInf_rowMax _

/-- The shifted logits of the softmax, entry by entry. -/
theorem v31_apply (r : Fin 262144) (j : Fin 512) :
    val_main_v31 (F := Ideal) x0 x1 x2 x3 x4 x5 (ix2 r j)
      = val_main_v24 (F := Ideal) x0 x1 x2 x3 x4 x5 (ix2 r j) - rowMax (fun j => val_main_v24 (F := Ideal) x0 x1 x2 x3 x4 x5 (ix2 r j)) := by
  have hi : idx_main_v29 (idx_main_v30 (ix2 r j)) = ix1 r := funext fun a => by match a with | ⟨0, _⟩ => rfl
  rw [val_main_v31_apply, val_main_v30_apply, val_main_v29_apply, hi, v28_apply, Ideal.subf_def]

/-- The second result of the reference, entry by entry: the softmax of the row of logits. -/
theorem v36_apply (r : Fin 262144) (j : Fin 512) :
    val_main_v36 (F := Ideal) x0 x1 x2 x3 x4 x5 (ix2 r j) = softmax (fun j => val_main_v24 (F := Ideal) x0 x1 x2 x3 x4 x5 (ix2 r j)) j := by
  have hi : idx_main_v34 (idx_main_v35 (ix2 r j)) = ix1 r := funext fun a => by match a with | ⟨0, _⟩ => rfl
  have h33 : ∀ k : Fin 512, idx_main_v33 (ix1 r) k = ix2 r k := fun k => funext fun a => by
    match a with | ⟨0, _⟩ => rfl | ⟨1, _⟩ => rfl
  rw [val_main_v36_apply, val_main_v35_apply, val_main_v34_apply, hi, val_main_v33_apply, val_main_v32_apply, v31_apply,
    Ideal.hostDivf_def, Ideal.hostUnary_exp_def]
  unfold softmax sumExp
  refine congrArg₂ Ideal.div rfl ?_
  show Ideal.ofBits .f32 0x00000000#32 + _ = _
  rw [Ideal.ofBits_zero_f32, zero_add]
  refine Finset.sum_congr rfl fun k _ => ?_
  rw [h33, val_main_v32_apply, v31_apply, Ideal.hostUnary_exp_def]

/-! ## The two results as whole arrays -/

/-- On finite inputs the reference's first result is the specification's array of log-probabilities. -/
theorem v25_eq (h0 : ∀ i, IsFin (x0 i)) (h1 : ∀ i, IsFin (x1 i)) (h2 : ∀ i, IsFin (x2 i)) (h3 : ∀ i, IsFin (x3 i)) (h4 : ∀ i, IsFin (x4 i)) (h5 : ∀ i, IsFin (x5 i)) :
    val_main_v25 (F := Ideal) x0 x1 x2 x3 x4 x5 = logProbs x0 x1 x2 x3 x4 x5 := by
  funext i
  obtain ⟨r, j, rfl⟩ : ∃ (r : Fin 262144) (j : Fin 512), i = ix2 r j := ⟨i 0, i 1, eq_ix2 i⟩
  rw [v25_apply, v24_row x0 x1 x2 x3 x4 x5 r h0 h1 h2 h3 h4 h5]
  rfl

/-- On finite inputs the reference's second result is the specification's array of probabilities. -/
theorem v36_eq (h0 : ∀ i, IsFin (x0 i)) (h1 : ∀ i, IsFin (x1 i)) (h2 : ∀ i, IsFin (x2 i)) (h3 : ∀ i, IsFin (x3 i)) (h4 : ∀ i, IsFin (x4 i)) (h5 : ∀ i, IsFin (x5 i)) :
    val_main_v36 (F := Ideal) x0 x1 x2 x3 x4 x5 = probs x0 x1 x2 x3 x4 x5 := by
  funext i
  obtain ⟨r, j, rfl⟩ : ∃ (r : Fin 262144) (j : Fin 512), i = ix2 r j := ⟨i 0, i 1, eq_ix2 i⟩
  rw [v36_apply, v24_row x0 x1 x2 x3 x4 x5 r h0 h1 h2 h3 h4 h5]
  rfl

end Cert.ReferenceIdeal.RefValue

end
-- ==== Proof.PreFin.lean ====
/-
  The precondition read back: every entry of the six inputs is a real number.

  The precondition is the conjunction, input by input, of "every entry's absolute value is below plus infinity". A
  conjunction of one-bit words that is 1 has every conjunct 1; an "all" that is 1 has a 1 at every entry; and an
  extended real whose absolute value is below plus infinity is neither infinity, hence a real number.
-/
import proofs.«144832_j33964601376969_2_alg».proof.Pre_finite_inputs
import proofs.«144832_j33964601376969_2_alg».proof.Proof.LibFinite
import Idealize.ShloMosaic.Lib.ReduceAll
import Idealize.ShloMosaic.Lib.ValueIdx
import Idealize.ShloMosaic.PureOps.Ideal.Laws

noncomputable section

namespace Cert.PreFin

open Idealize.ShloMosaic Idealize.ShloMosaic.ValueIdx Cert.LibFinite Cert.Pre_finite_inputs

/-- The pattern 0x7F800000 denotes plus infinity. -/
theorem ofBits_inf : Ideal.ofBits .f32 0x7F800000#32 = (⊤ : EReal) := by
  simp [Ideal.ofBits, Ideal.ieee]

/-- An extended real whose absolute value compares below plus infinity is a real number. -/
theorem isFin_of_abs_lt (x : EReal) (h : Ideal.cmp .olt (max x (-x)) (Ideal.ofBits .f32 0x7F800000#32) = 1#1) : IsFin x := by
  rw [ofBits_inf] at h
  induction x using EReal.rec with
  | bot => simp [Ideal.cmp] at h
  | top => simp [Ideal.cmp] at h
  | coe r => exact ⟨r, rfl⟩

instance : Subsingleton (⟨0, ![]⟩ : Shape).Idx := ⟨fun a b => funext fun d => d.elim0⟩

variable [Cert.Pre_finite_inputs.Facts]

/-- One input's "all entries below plus infinity" gives each entry real. -/
theorem all_fin {s : Shape} {axes : List (Fin s.rank)} (x : FVec Ideal s .f32) (hb : S_.BroadcastsInDim s (![] : Fin 0 → Fin s.rank)) (h : s.ReducesTo axes S_) (hu : 0 < S_.numel)
    (e : Host.reduce IntOp.andi (cmpf .olt (Host.absf x) (broadcastInDim s ![] hb (constant (F := Ideal) S_ .f32 0x7F800000#32))) (constantI S_ 1 1#1) h hu ix0 = 1#1)
    (i : s.Idx) : IsFin (x i) :=
  isFin_of_abs_lt (x i) (Host.reduce_andi_all _ _ h hu ix0 e i)

/-- The precondition gives every entry of every input real. -/
theorem finite_of_pre (a0 : FVec Ideal S512x768 .f32) (a1 : FVec Ideal S262144x768 .f32) (a2 : FVec Ideal S128x768 .f32)
    (a3 : FVec Ideal S128 .f32) (a4 : FVec Ideal S128x768 .f32) (a5 : FVec Ideal S128 .f32)
    (h : fn (F := Ideal) a0 a1 a2 a3 a4 a5 = fun _ => 1#1) :
    (∀ i, IsFin (a0 i)) ∧ (∀ i, IsFin (a1 i)) ∧ (∀ i, IsFin (a2 i)) ∧ (∀ i, IsFin (a3 i)) ∧ (∀ i, IsFin (a4 i)) ∧ (∀ i, IsFin (a5 i)) := by
  have e := congrFun h ix0
  dsimp only [fn, fn_part1] at e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨all_fin a0 _ _ _ e0, all_fin a1 _ _ _ e1, all_fin a2 _ _ _ e2, all_fin a3 _ _ _ e3, all_fin a4 _ _ _ e4, all_fin a5 _ _ _ e5⟩

end Cert.PreFin

end
-- ==== Proof.lean ====
/-
  The kernel and its reference compute the same two arrays over the extended reals.

  Both programs project 512 tag embeddings and 262144 word embeddings into a 128-dimensional space (a matrix product
  with a transposed weight matrix, plus a bias), take minus the squared distance from every word to every tag as the
  logits, and return the log-softmax and the softmax of each word's row of 512 logits. The kernel computes the tags'
  projection once on the host, streams the words through in 256 blocks of 1024 rows, expands the logits as
  2 (w . t) - |w|^2 - |t|^2, and subtracts each row's maximum once; the reference negates the distance
  (|w|^2 + |t|^2) - 2 (w . t), sums each squared norm from a literal zero, and takes the row maximum once more against
  minus infinity. Over the extended reals the extra maximum and the literal zeros change nothing, and the two spellings
  of the logits agree wherever the projections are finite, which the precondition (every input entry finite) gives:
  on the extended reals a sign cannot be moved through a sum that holds an infinity, so this is where the precondition
  is used. The idealization rewrote no operation, so it has nothing to preserve.
-/
import proofs.«144832_j33964601376969_2_alg».proof.Defs
import proofs.«144832_j33964601376969_2_alg».proof.Proof.Gen.Kernel
import proofs.«144832_j33964601376969_2_alg».proof.Proof.Gen.Kernel.Frame
import proofs.«144832_j33964601376969_2_alg».proof.Proof.Gen.KernelIdeal
import proofs.«144832_j33964601376969_2_alg».proof.Proof.Gen.KernelIdeal.Frame
import proofs.«144832_j33964601376969_2_alg».proof.Proof.Gen.ReferenceIdeal
import proofs.«144832_j33964601376969_2_alg».proof.Proof.Gen.Pre_finite_inputs
import proofs.«144832_j33964601376969_2_alg».proof.Proof.KValue
import proofs.«144832_j33964601376969_2_alg».proof.Proof.RefRun
import proofs.«144832_j33964601376969_2_alg».proof.Proof.RefValue
import proofs.«144832_j33964601376969_2_alg».proof.Proof.PreFin
import Idealize.ShloMosaic.Adequacy
import Idealize.ShloMosaic.Init

noncomputable section

namespace Cert.Proof

open Idealize.ShloMosaic Idealize.ShloMosaic.TcCoe Idealize.SL.Sem

/-- The kernel's program runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the two results dropped. -/
theorem frame_ri : Cert.frame_ReferenceIdeal := fun m ρ _ =>
  (θ_run Cert.ReferenceIdeal.defs _ _).mono (fun _ h c => (h c).2.2) (Cert.ReferenceIdeal.RefRun.run (F := Ideal) m ρ)

/-- From memories agreeing on the six arguments, all finite, the kernel's results are the specification's two arrays
    of the arguments, and so are the reference's. -/
theorem algebraic : Cert.algebraic_KernelIdeal_ReferenceIdeal := by
  intro m ρ m' ρ' hpre hagree
  refine ⟨fun c => Cert.KernelIdeal.Whole.G4 m c, fun c => Cert.KernelIdeal.Whole.G5 m c, Cert.KernelIdeal.Whole.run m ρ, ?_⟩
  refine (θ_run Cert.ReferenceIdeal.defs _ _).mono (fun _ h c => ?_) (Cert.ReferenceIdeal.RefRun.run (F := Ideal) m' ρ')
  obtain ⟨a0, a1, a2, a3, a4, a5⟩ := hagree c
  obtain ⟨f0, f1, f2, f3, f4, f5⟩ := Cert.PreFin.finite_of_pre _ _ _ _ _ _ (hpre c)
  refine ⟨(h c).1.trans ?_, (h c).2.1.trans ?_, (h c).2.2⟩
  · rw [a0, a1, a2, a3, a4, a5]
    exact Cert.ReferenceIdeal.RefValue.v25_eq _ _ _ _ _ _ f0 f1 f2 f3 f4 f5
  · rw [a0, a1, a2, a3, a4, a5]
    exact Cert.ReferenceIdeal.RefValue.v36_eq _ _ _ _ _ _ f0 f1 f2 f3 f4 f5

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
